-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v76_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_v76_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x384 : Shape := ⟨2, ![50000, 384]⟩
abbrev S2x600000 : Shape := ⟨2, ![2, 600000]⟩
abbrev S50000x256 : Shape := ⟨2, ![50000, 256]⟩
abbrev S384x128 : Shape := ⟨2, ![384, 128]⟩
abbrev S128 : Shape := ⟨1, ![128]⟩
abbrev S128x256 : Shape := ⟨2, ![128, 256]⟩
abbrev S128x128 : Shape := ⟨2, ![128, 128]⟩
abbrev S_ : Shape := ⟨0, ![]⟩

class Facts : Prop where
  bcast_S_S50000x384 : S_.BroadcastsInDim S50000x384 (![] : Fin 0 → Fin S50000x384.rank)
  reducesTo_S50000x384_S_d0_1 : S50000x384.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x256 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x384 .f32) (main_arg1 : IVec S2x600000 32) (main_arg2 : FVec F S50000x256 .f32) (main_arg3 : FVec F S384x128 .f32) (main_arg4 : FVec F S128 .f32) (main_arg5 : FVec F S128x256 .f32) (main_arg6 : FVec F S128x128 .f32) (main_arg7 : FVec F S128 .f32) (main_arg8 : FVec F S128x128 .f32) (main_arg9 : FVec F S128 .f32) : IVec S_ 1 :=
  let main_v0 : FVec F S50000x384 .f32 := Host.absf main_arg0
  let main_cst : FVec F S_ .f32 := constant S_ .f32 0x7F800000#32
  let main_v1 : FVec F S50000x384 .f32 := broadcastInDim S50000x384 ![] bcast_S_S50000x384 main_cst
  let main_v2 : IVec S50000x384 1 := cmpf .olt main_v0 main_v1
  let main_c : IVec S_ 1 := constantI S_ 1 1#1
  let main_v3 : IVec S_ 1 := (fun x v => Host.reduce IntOp.andi x v reducesTo_S50000x384_S_d0_1 h_S_) main_v2 main_c
  let main_v4 : FVec F S50000x256 .f32 := Host.absf main_arg2
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x384 : Shape := ⟨2, ![50000, 384]⟩
abbrev S2x600000 : Shape := ⟨2, ![2, 600000]⟩
abbrev S50000x256 : Shape := ⟨2, ![50000, 256]⟩
abbrev S384x128 : Shape := ⟨2, ![384, 128]⟩
abbrev S128 : Shape := ⟨1, ![128]⟩
abbrev S128x256 : Shape := ⟨2, ![128, 256]⟩
abbrev S128x128 : Shape := ⟨2, ![128, 128]⟩
abbrev S50000x128 : Shape := ⟨2, ![50000, 128]⟩
abbrev S256x128 : Shape := ⟨2, ![256, 128]⟩
abbrev S2000x384 : Shape := ⟨2, ![2000, 384]⟩
abbrev S2000x256 : Shape := ⟨2, ![2000, 256]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩

abbrev nBuf : Space → Nat
  | .hbm => 115
  | .vmem => 28
  | .smem => 0
  | _ => 0

abbrev bufTy : (tb : Table) → Fin (tcTables nBuf tb) → BufTy
  | .hbm, ⟨0, _⟩ => ⟨S50000x384, .f32⟩
  | .hbm, ⟨1, _⟩ => ⟨S2x600000, .i32⟩
  | .hbm, ⟨2, _⟩ => ⟨S50000x256, .f32⟩
  | .hbm, ⟨3, _⟩ => ⟨S384x128, .f32⟩
  | .hbm, ⟨4, _⟩ => ⟨S128, .f32⟩
  | .hbm, ⟨5, _⟩ => ⟨S128x256, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S50000x128, .f32⟩
  | .hbm, ⟨11, _⟩ => ⟨S256x128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .f32⟩
  | .hbm, ⟨17, _⟩ => ⟨S600000, .f32⟩
  | .hbm, ⟨18, _⟩ => ⟨S_, .f32⟩
  | .hbm, ⟨19, _⟩ => ⟨S50000, .f32⟩
  | .hbm, ⟨20, _⟩ => ⟨S600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000, .f32⟩
  | .hbm, ⟨57, _⟩ => ⟨S600000, .f32⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x128, .f32⟩
  | .hbm, ⟨67, _⟩ => ⟨S600000x1, .f32⟩
  | .hbm, ⟨68, _⟩ => ⟨S600000x128, .f32⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S600000, .i32⟩
  | .hbm, ⟨77, _⟩ => ⟨S600000, .i1⟩
  | .hbm, ⟨78, _⟩ => ⟨S_, .i32⟩
  | .hbm, ⟨79, _⟩ => ⟨S600000, .i32⟩
  | .hbm, ⟨80, _⟩ => ⟨S600000, .i32⟩
  | .hbm, ⟨81, _⟩ => ⟨S600000, .i32⟩
  | .hbm, ⟨82, _⟩ => ⟨S600000x1, .i32⟩
  | .hbm, ⟨83, _⟩ => ⟨S600000x128, .f32⟩
  | .hbm, ⟨84, _⟩ => ⟨S600000x1, .f32⟩
  | .hbm, ⟨85, _⟩ => ⟨S600000x128, .f32⟩
  | .hbm, ⟨86, _⟩ => ⟨S600000x128, .f32⟩
  | .hbm, ⟨87, _⟩ => ⟨S_, .f32⟩
  | .hbm, ⟨88, _⟩ => ⟨S50000x128, .f32⟩
  | .hbm, ⟨89, _⟩ => ⟨S600000x1, .i32⟩
  | .hbm, ⟨90, _⟩ => ⟨S50000x128, .f32⟩
  | .hbm, ⟨91, _⟩ => ⟨S50000x128, .f32⟩
  | .hbm, ⟨92, _⟩ => ⟨S_, .i32⟩
  | .hbm, ⟨93, _⟩ => ⟨S600000, .i32⟩
  | .hbm, ⟨94, _⟩ => ⟨S600000, .i1⟩
  | .hbm, ⟨95, _⟩ => ⟨S_, .i32⟩
  | .hbm, ⟨96, _⟩ => ⟨S600000, .i32⟩
  | .hbm, ⟨97, _⟩ => ⟨S600000, .i32⟩
  | .hbm, ⟨98, _⟩ => ⟨S600000, .i32⟩
  | .hbm, ⟨99, _⟩ => ⟨S600000x1, .i32⟩
  | .hbm, ⟨100, _⟩ => ⟨S600000x128, .f32⟩
  | .hbm, ⟨101, _⟩ => ⟨S600000x1, .f32⟩
  | .hbm, ⟨102, _⟩ => ⟨S600000x128, .f32⟩
  | .hbm, ⟨103, _⟩ => ⟨S600000x128, .f32⟩
  | .hbm, ⟨104, _⟩ => ⟨S_, .f32⟩
  | .hbm, ⟨105, _⟩ => ⟨S50000x128, .f32⟩
  | .hbm, ⟨106, _⟩ => ⟨S600000x1, .i32⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S50000x128, .f32⟩
  | .hbm, ⟨114, _⟩ => ⟨S50000x128, .f32⟩
  | .local _ .vmem, ⟨0, _⟩ => ⟨S2000x384, .f32⟩
  | .local _ .vmem, ⟨1, _⟩ => ⟨S2000x384, .f32⟩
  | .local _ .vmem, ⟨2, _⟩ => ⟨S2000x256, .f32⟩
  | .local _ .vmem, ⟨3, _⟩ => ⟨S2000x256, .f32⟩
  | .local _ .vmem, ⟨4, _⟩ => ⟨S384x128, .f32⟩
  | .local _ .vmem, ⟨5, _⟩ => ⟨S128, .f32⟩
  | .local _ .vmem, ⟨6, _⟩ => ⟨S128x256, .f32⟩
  | .local _ .vmem, ⟨7, _⟩ => ⟨S2000x128, .f32⟩
  | .local _ .vmem, ⟨8, _⟩ => ⟨S2000x128, .f32⟩
  | .local _ .vmem, ⟨9, _⟩ => ⟨S256x128, .f32⟩
  | .local _ .vmem, ⟨10, _⟩ => ⟨S2000x128, .f32⟩
  | .local _ .vmem, ⟨11, _⟩ => ⟨S2000x128, .f32⟩
  | .local _ .vmem, ⟨12, _⟩ => ⟨S2000x256, .f32⟩
  | .local _ .vmem, ⟨13, _⟩ => ⟨S2000x256, .f32⟩
  | .local _ .vmem, ⟨14, _⟩ => ⟨S2000x128, .f32⟩
  | .local _ .vmem, ⟨15, _⟩ => ⟨S2000x128, .f32⟩
  | .local _ .vmem, ⟨16, _⟩ => ⟨S128x256, .f32⟩
  | .local _ .vmem, ⟨17, _⟩ => ⟨S256x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | _, _ => ⟨S50000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_7 : Ref sig .tc := ⟨.hbm, 48, rfl⟩
abbrev main_v24 : Ref sig .tc := ⟨.hbm, 49, rfl⟩
abbrev main_v25 : Ref sig .tc := ⟨.hbm, 50, rfl⟩
abbrev main_c_8 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_9 : Ref sig .tc := ⟨.hbm, 58, rfl⟩
abbrev main_v32 : Ref sig .tc := ⟨.hbm, 59, rfl⟩
abbrev main_v33 : Ref sig .tc := ⟨.hbm, 60, rfl⟩
abbrev main_c_10 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_c_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_c_16 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_18 : Ref sig .tc := ⟨.hbm, 109, rfl⟩
abbrev main_v74 : Ref sig .tc := ⟨.hbm, 110, rfl⟩
abbrev main_v75 : Ref sig .tc := ⟨.hbm, 111, rfl⟩
abbrev main_v76_0 : Ref sig .tc := ⟨.hbm, 112, rfl⟩
abbrev main_v76_1 : Ref sig .tc := ⟨.hbm, 113, rfl⟩
abbrev main_v76_2 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  inb_S256x128_S256x128_0_0 : ∀ a, (![0, 0] : Fin 2 → Nat) a + S256x128.size a ≤ S256x128.size a
  h_S256x128 : 0 < S256x128.numel
  inb_S2000x384_S2000x384_0_0 : ∀ a, (![0, 0] : Fin 2 → Nat) a + S2000x384.size a ≤ S2000x384.size a
  h_S2000x384 : 0 < S2000x384.numel
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  broadcasts_S2000x1_S2000x256 : S2000x1.Broadcasts S2000x256
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S2000x128_S2000x128 : S2000x128.ShapeCasts S2000x128
  reduces_S2000x128_S2000 : S2000x128.Reduces [1] S2000
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  dot_S2000x384_S384x128_S2000x128_1_0_0_1_n_n_wf : DotDims.WF S2000x384 S384x128 S2000x128 [1] [0] [0] [1] [] []
  dot_S2000x128_S128x256_S2000x256_1_0_0_1_n_n_wf : DotDims.WF S2000x128 S128x256 S2000x256 [1] [0] [0] [1] [] []
  dot_S2000x256_S2000x128_S256x128_0_0_1_1_n_n_wf : DotDims.WF S2000x256 S2000x128 S256x128 [0] [0] [1] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S50000x384.size a
  hwx0_0 : ∀ i : grid0.Coords, EltTy.bits .f32 = 32 ∨ (Rect.block (s := S50000x384) S2000x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x128.size a ≤ S384x128.size a
  hwx0_2 : ∀ i : grid0.Coords, EltTy.bits .f32 = 32 ∨ (Rect.block (s := S384x128) S384x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)

variable [Facts₀]

def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S256x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v75) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v76_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v76_1) S2000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v76_2) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x384 : Shape := ⟨2, ![50000, 384]⟩
abbrev S2x600000 : Shape := ⟨2, ![2, 600000]⟩
abbrev S50000x256 : Shape := ⟨2, ![50000, 256]⟩
abbrev S384x128 : Shape := ⟨2, ![384, 128]⟩
abbrev S128 : Shape := ⟨1, ![128]⟩
abbrev S128x256 : Shape := ⟨2, ![128, 256]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x128 : Shape := ⟨2, ![50000, 128]⟩
abbrev S1x128 : Shape := ⟨2, ![1, 128]⟩
abbrev S600000x128 : Shape := ⟨2, ![600000, 128]⟩
abbrev S50000x1 : Shape := ⟨2, ![50000, 1]⟩
abbrev S256x50000 : Shape := ⟨2, ![256, 50000]⟩
abbrev S256x128 : Shape := ⟨2, ![256, 128]⟩

abbrev nBuf : Space → Nat
  | .hbm => 174
  | .vmem => 0
  | .smem => 0
  | _ => 0

abbrev hbmTy0_0 (i : Nat) : BufTy := match i % 128 with
  | 0 => ⟨S50000x384, .f32⟩
  | 1 => ⟨S2x600000, .i32⟩
  | 2 => ⟨S50000x256, .f32⟩
  | 3 => ⟨S384x128, .f32⟩
  | 4 => ⟨S128, .f32⟩
  | 5 => ⟨S128x256, .f32⟩
  | 6 => ⟨S128x128, .f32⟩
  | 7 => ⟨S128, .f32⟩
  | 8 => ⟨S128x128, .f32⟩
  | 9 => ⟨S128, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .i1⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000, .f32⟩
  | 55 => ⟨S600000, .f32⟩
  | 56 => ⟨S50000x128, .f32⟩
  | 57 => ⟨S1x128, .f32⟩
  | 58 => ⟨S50000x128, .f32⟩
  | 59 => ⟨S50000x128, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x128, .f32⟩
  | 69 => ⟨S600000x1, .f32⟩
  | 70 => ⟨S600000x128, .f32⟩
  | 71 => ⟨S600000x128, .f32⟩
  | 72 => ⟨S_, .f32⟩
  | 73 => ⟨S50000x128, .f32⟩
  | 74 => ⟨S600000x1, .i32⟩
  | 75 => ⟨S50000x128, .f32⟩
  | 76 => ⟨S50000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S600000x1, .f32⟩
  | 87 => ⟨S600000x128, .f32⟩
  | 88 => ⟨S600000x128, .f32⟩
  | 89 => ⟨S_, .f32⟩
  | 90 => ⟨S50000x128, .f32⟩
  | 91 => ⟨S600000x1, .i32⟩
  | 92 => ⟨S50000x128, .f32⟩
  | 93 => ⟨S50000x128, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x1, .f32⟩
  | 104 => ⟨S600000x128, .f32⟩
  | 105 => ⟨S600000x128, .f32⟩
  | 106 => ⟨S_, .f32⟩
  | 107 => ⟨S50000x128, .f32⟩
  | 108 => ⟨S600000x1, .i32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x256, .f32⟩
  | 115 => ⟨S_, .f32⟩
  | 116 => ⟨S50000x256, .f32⟩
  | 117 => ⟨S50000x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S50000x256, .f32⟩
  | 124 => ⟨S50000x256, .f32⟩
  | 125 => ⟨S50000x256, .f32⟩
  | 126 => ⟨S_, .f32⟩
  | 127 => ⟨S50000x256, .f32⟩
  | _ => ⟨S50000x384, .f32⟩

abbrev hbmTy0_1 (i : Nat) : BufTy := match i % 128 with
  | 0 => ⟨S50000x256, .f32⟩
  | 1 => ⟨S_, .f32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x256, .f32⟩
  | 8 => ⟨S50000x256, .f32⟩
  | 9 => ⟨S50000x256, .f32⟩
  | 10 => ⟨S_, .f32⟩
  | 11 => ⟨S50000, .f32⟩
  | 12 => ⟨S50000x1, .f32⟩
  | 13 => ⟨S50000x256, .f32⟩
  | 14 => ⟨S50000x256, .f32⟩
  | 15 => ⟨S256x50000, .f32⟩
  | 16 => ⟨S256x128, .f32⟩
  | 17 => ⟨S50000x128, .f32⟩
  | 18 => ⟨S50000x128, .f32⟩
  | 19 => ⟨S_, .f32⟩
  | 20 => ⟨S50000, .f32⟩
  | 21 => ⟨S50000x1, .f32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | _ => ⟨S50000x384, .f32⟩

abbrev hbmTy (i : Nat) : BufTy := match i / 128 with
  | 0 => hbmTy0_0 i
  | 1 => hbmTy0_1 i
  | _ => ⟨S50000x384, .f32⟩

abbrev bufTy : (tb : Table) → Fin (tcTables nBuf tb) → BufTy
  | .hbm, ⟨i, _⟩ => hbmTy i
  | _, _ => ⟨S50000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_call1_v0 : Ref sig .tc := ⟨.hbm, 34, rfl⟩
abbrev main_call1_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_7 : Ref sig .tc := ⟨.hbm, 46, rfl⟩
abbrev main_v23 : Ref sig .tc := ⟨.hbm, 47, rfl⟩
abbrev main_v24 : Ref sig .tc := ⟨.hbm, 48, rfl⟩
abbrev main_c_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_20 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_21 : Ref sig .tc := ⟨.hbm, 126, rfl⟩
abbrev main_v89 : Ref sig .tc := ⟨.hbm, 127, rfl⟩
abbrev main_v90 : Ref sig .tc := ⟨.hbm, 128, rfl⟩
abbrev main_cst_22 : Ref sig .tc := ⟨.hbm, 129, rfl⟩
abbrev main_v91 : Ref sig .tc := ⟨.hbm, 130, rfl⟩
abbrev main_cst_23 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_24 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_call2_v0 : Ref sig .tc := ⟨.hbm, 146, rfl⟩
abbrev main_call2_cst : Ref sig .tc := ⟨.hbm, 147, rfl⟩
abbrev main_call2_v1 : Ref sig .tc := ⟨.hbm, 148, rfl⟩
abbrev main_call2_v2 : Ref sig .tc := ⟨.hbm, 149, rfl⟩
abbrev main_v105 : Ref sig .tc := ⟨.hbm, 150, rfl⟩
abbrev main_cst_25 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_26 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call3_cst : Ref sig .tc := ⟨.hbm, 164, rfl⟩
abbrev main_call3_v0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_call4_cst : Ref sig .tc := ⟨.hbm, 171, rfl⟩
abbrev main_call4_v0 : Ref sig .tc := ⟨.hbm, 172, rfl⟩
abbrev main_v122 : Ref sig .tc := ⟨.hbm, 173, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000x256 : S_.BroadcastsInDim S50000x256 (![] : Fin 0 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S50000x256_S256x50000_1_0 : S50000x256.Transposes [1, 0] S256x50000
  reducesTo_S50000x128_S50000_d1 : S50000x128.ReducesTo [1] S50000
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x384_S384x128_S50000x128_1_0_0_1_n_n_wf : DotDims.WF S50000x384 S384x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S256x50000_S50000x128_S256x128_1_0_0_1_n_n_wf : DotDims.WF S256x50000 S50000x128 S256x128 [1] [0] [0] [1] [] []
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S256x50000_S50000x128_S256x128_1_0_0_1_n_n : DotDims S256x50000 S50000x128 S256x128 where
  lhsContracting := [1]
  rhsContracting := [0]
  lhsNonContracting := [0]
  rhsNonContracting := [1]
  lhsBatch := []
  rhsBatch := []
  wf := dot_S256x50000_S50000x128_S256x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel program's run with its final buffer contents kept.

  The program is two kernel launches with a stretch of host operations between them. Its run ends with
  every unscoped buffer of the TensorCore at the contents obtained by folding the segments over the launch
  memory: the first launch's write-backs, then the host operations, then the second launch's write-backs.
  The frame statement keeps only the argument arrays of that final state; here every buffer is kept, so
  that the three result arrays can be read.
-/
import proofs.«138085_j29712583754279_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer at the
    contents the segments' fold gives it. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W7 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c _ (mem_uc b hb))

end Cert.KernelIdeal.RunValue

end
-- ==== Proof.RowMath.lean ====
/-
  The mathematics both programs compute, row by row, over the extended reals.

  A node's embedding is an affine image of its feature row; its soft assignment to the 256 hyperedges is a
  softmax of (embedding · W_hyper + Gumbel noise) / 0.5, shifted by the row's maximum; the latent hyperedge
  features are the assignment-weighted sum of ALL embeddings (the one place where rows meet); a node's
  hypergraph message is its assignment times the latent features, scaled to unit Euclidean length (with a
  floor on the length) and added, times 0.1, to its graph-propagated embedding; two further affine images
  clipped below at zero give the two projections.

  Everything except the latent features is a function of ONE row, so it is stated on rows: a program that
  works on a block of rows and one that works on the whole array compute the same row function.
-/
import Idealize.ShloMosaic.Lib.ValueIdx
import Idealize.ShloMosaic.PureOps.Ideal.Laws

noncomputable section

open scoped BigOperators

namespace Cert.RowMath

open Idealize.ShloMosaic Idealize.ShloMosaic.ValueIdx

/-- The float words the two programs share, as the extended reals they denote. -/
def eps : EReal := Ideal.ofBits .f32 0x2EDBE6FF#32
def half : EReal := Ideal.ofBits .f32 0x3F000000#32
def negInf : EReal := Ideal.ofBits .f32 0xFF800000#32
def floorLen : EReal := Ideal.ofBits .f32 0x2B8CBCCC#32
def tenth : EReal := Ideal.ofBits .f32 0x3DCCCCCD#32
def zeroW : EReal := Ideal.ofBits .f32 0x00000000#32

variable {K B : Nat}

/-- A row times a matrix: entry j is the sum over q of row q · w (q, j). -/
def rowTimes (xr : Fin K → EReal) (w : Fin K → Fin B → EReal) : Fin B → EReal :=
  fun j => ∑ q : Fin K, xr q * w q j

/-- A row times a matrix plus a bias row. -/
def rowAffine (xr : Fin K → EReal) (w : Fin K → Fin B → EReal) (bias : Fin B → EReal) : Fin B → EReal :=
  fun j => rowTimes xr w j + bias j

/-- Gumbel noise from a uniform sample: -log (-log (u + eps) + eps). -/
def gumbel (u : EReal) : EReal := -Ideal.log (-Ideal.log (u + eps) + eps)

/-- The tempered, noised scores of one node against the 256 hyperedges. -/
def scoreRow (er : Fin 128 → EReal) (wh : Fin 128 → Fin 256 → EReal) (ur : Fin 256 → EReal) : Fin 256 → EReal :=
  fun h => Ideal.div (rowTimes er wh h + gumbel (ur h)) half

/-- A row's maximum, folded from -inf (and once more against -inf, as both programs do). -/
def rowTop (z : Fin 256 → EReal) : EReal := max negInf ((Finset.univ : Finset (Fin 256)).fold max negInf z)

/-- The exponential of a score shifted by the row's maximum. -/
def expShift (z : Fin 256 → EReal) : Fin 256 → EReal := fun h => Ideal.exp (z h - rowTop z)

/-- The softmax of a row of scores. -/
def softRow (z : Fin 256 → EReal) : Fin 256 → EReal :=
  fun h => Ideal.div (expShift z h) (∑ h' : Fin 256, expShift z h')

/-- A node's soft assignment to the hyperedges. -/
def assignRow (er : Fin 128 → EReal) (wh : Fin 128 → Fin 256 → EReal) (ur : Fin 256 → EReal) : Fin 256 → EReal :=
  softRow (scoreRow er wh ur)

/-- The latent hyperedge features of a family of N nodes: entry (h, j) is the sum over nodes of assignment · embedding. -/
def latent {N : Nat} (a : Fin N → Fin 256 → EReal) (e : Fin N → Fin 128 → EReal) : Fin 256 → Fin 128 → EReal :=
  fun h j => ∑ n : Fin N, a n h * e n j

/-- The Euclidean length of a row, floored. -/
def rowLen (hr : Fin 128 → EReal) : EReal := max (Ideal.sqrt (∑ j : Fin 128, hr j * hr j)) floorLen

/-- The fused row: propagated embedding plus 0.1 · (message / its floored length). -/
def fuseRow (lr hr : Fin 128 → EReal) : Fin 128 → EReal :=
  fun j => lr j + tenth * Ideal.div (hr j) (rowLen hr)

/-- An affine image of a row clipped below at zero. -/
def clipAffine (fr : Fin 128 → EReal) (w : Fin 128 → Fin 128 → EReal) (bias : Fin 128 → EReal) : Fin 128 → EReal :=
  fun j => max (rowAffine fr w bias j) zeroW

/-! ## The three results as whole arrays -/

section Whole

variable (X : (⟨2, ![50000, 384]⟩ : Shape).Idx → EReal) (U : (⟨2, ![50000, 256]⟩ : Shape).Idx → EReal)
  (Wf : (⟨2, ![384, 128]⟩ : Shape).Idx → EReal) (bf : (⟨1, ![128]⟩ : Shape).Idx → EReal)
  (Wh : (⟨2, ![128, 256]⟩ : Shape).Idx → EReal) (Loc : (⟨2, ![50000, 128]⟩ : Shape).Idx → EReal)

/-- A 2-d array as a function of its two coordinates. -/
def mat {A C : Nat} (M : (⟨2, ![A, C]⟩ : Shape).Idx → EReal) : Fin A → Fin C → EReal := fun a c => M (ix2 a c)
/-- A 1-d array as a function of its coordinate. -/
def vec {A : Nat} (v : (⟨1, ![A]⟩ : Shape).Idx → EReal) : Fin A → EReal := fun a => v (ix1 a)

/-- Node n's embedding row. -/
def embRow (n : Fin 50000) : Fin 128 → EReal := rowAffine (mat X n) (mat Wf) (vec bf)
/-- Node n's assignment row. -/
def asgRow (n : Fin 50000) : Fin 256 → EReal := assignRow (embRow X Wf bf n) (mat Wh) (mat U n)
/-- The latent hyperedge features over all 50000 nodes. -/
def latAll : Fin 256 → Fin 128 → EReal := latent (asgRow X U Wf bf Wh) (embRow X Wf bf)
/-- Node n's fused row. -/
def fusedRow (n : Fin 50000) : Fin 128 → EReal :=
  fuseRow (mat Loc n) (rowTimes (asgRow X U Wf bf Wh n) (latAll X U Wf bf Wh))

/-- The embedding array. -/
def embArr : (⟨2, ![50000, 128]⟩ : Shape).Idx → EReal := fun i => embRow X Wf bf (i 0) (i 1)
/-- The latent array. -/
def latArr : (⟨2, ![256, 128]⟩ : Shape).Idx → EReal := fun i => latAll X U Wf bf Wh (i 0) (i 1)
/-- The first result: the fused rows. -/
def fusedArr : (⟨2, ![50000, 128]⟩ : Shape).Idx → EReal := fun i => fusedRow X U Wf bf Wh Loc (i 0) (i 1)
/-- The second and third results: a clipped affine image of the fused rows. -/
def projArr (W : (⟨2, ![128, 128]⟩ : Shape).Idx → EReal) (b : (⟨1, ![128]⟩ : Shape).Idx → EReal) :
    (⟨2, ![50000, 128]⟩ : Shape).Idx → EReal :=
  fun i => clipAffine (fusedRow X U Wf bf Wh Loc (i 0)) (mat W) (vec b) (i 1)

end Whole

end Cert.RowMath

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibColumn.lean ====
/-
  A column read at an index.

  A vector of length a cast to an a-by-1 column reads, at (i, u), the vector at i; an a-by-1 column
  broadcast across b lanes reads, at (p, c), the column's entry of row p. These are the keep-dims forms a
  row reduction leaves behind: the reduced value of row p, used again at every lane of that row.
-/
import Idealize.ShloMosaic.Lib.ValueLayout

namespace Idealize.ShloMosaic.ColumnIdx

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnIdx
-- ==== Proof.BodyA.lean ====
/-
  The first kernel's body read at an index, over the extended reals.

  A block of 2000 nodes: the embedding block is the feature block times the weights plus the bias row; the
  shifted exponentials are exp (score - row maximum), the score being (embedding row · hyperedge weights +
  Gumbel noise) / one half, the noise written as 0 - log (0 - log (u + eps) + eps); the accumulator update
  adds, to the latent entry (h, j), the sum over the block's rows of (exponential (r, h) / row r's sum of
  exponentials) · embedding (r, j): the block's share of the latent features.

  The last product contracts the ROW axis of both operands (the left operand is used transposed): its
  entry (h, j) is the sum over rows r of lhs (r, h) · rhs (r, j).
-/
import proofs.«138085_j29712583754279_1_alg».proof.Proof.Gen.KernelIdeal.Skeleton
import proofs.«138085_j29712583754279_1_alg».proof.Proof.RowMath
import proofs.«138085_j29712583754279_1_alg».proof.Proof.LibPlainDot
import proofs.«138085_j29712583754279_1_alg».proof.Proof.LibColumn
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.BodyA

open Cert.KernelIdeal Cert.KernelIdeal.Gen Idealize.ShloMosaic Idealize.SL.Sem
open Idealize.ShloMosaic.ValueIdx Idealize.ShloMosaic.ColumnIdx Cert.RowMath

/-! ## The product that contracts both operands' row axis -/

/-- The left operand's row coordinate is the contraction coordinate. -/
theorem tl_row (i : S256x128.Idx) (q : dot_S2000x256_S2000x128_S256x128_0_0_1_1_n_n.contr.Idx) :
    (dot_S2000x256_S2000x128_S256x128_0_0_1_1_n_n.lhsIdx i q 0).val = (q ⟨0, by decide⟩).val :=
  dot_S2000x256_S2000x128_S256x128_0_0_1_1_n_n.lhsIdx_val_of_single rfl i q

/-- The left operand's column coordinate is the result's row coordinate. -/
theorem tl_col (i : S256x128.Idx) (q : dot_S2000x256_S2000x128_S256x128_0_0_1_1_n_n.contr.Idx) :
    (dot_S2000x256_S2000x128_S256x128_0_0_1_1_n_n.lhsIdx i q 1).val = (i 0).val := by
  unfold DotDims.lhsIdx
  rw [dif_neg (show ¬(1 : Fin S2000x256.rank) ∈ dot_S2000x256_S2000x128_S256x128_0_0_1_1_n_n.lhsBatch by decide),
    dif_pos (show (1 : Fin S2000x256.rank) ∈ dot_S2000x256_S2000x128_S256x128_0_0_1_1_n_n.lhsNonContracting by decide)]
  rfl

/-- The right operand's row coordinate is the contraction coordinate. -/
theorem tr_row (i : S256x128.Idx) (q : dot_S2000x256_S2000x128_S256x128_0_0_1_1_n_n.contr.Idx) :
    (dot_S2000x256_S2000x128_S256x128_0_0_1_1_n_n.rhsIdx i q 0).val = (q ⟨0, by decide⟩).val :=
  dot_S2000x256_S2000x128_S256x128_0_0_1_1_n_n.rhsIdx_val_of_single rfl i q

/-- The right operand's column coordinate is the result's column coordinate. -/
theorem tr_col (i : S256x128.Idx) (q : dot_S2000x256_S2000x128_S256x128_0_0_1_1_n_n.contr.Idx) :
    (dot_S2000x256_S2000x128_S256x128_0_0_1_1_n_n.rhsIdx i q 1).val = (i 1).val := by
  unfold DotDims.rhsIdx
  rw [dif_neg (show ¬(1 : Fin S2000x128.rank) ∈ dot_S2000x256_S2000x128_S256x128_0_0_1_1_n_n.rhsBatch by decide),
    dif_pos (show (1 : Fin S2000x128.rank) ∈ dot_S2000x256_S2000x128_S256x128_0_0_1_1_n_n.rhsNonContracting by decide)]
  rfl

/-- Into the zero splat, the row-contracting product at (h, j) is the sum over rows r of lhs (r, h) · rhs (r, j). -/
theorem matmulT_zero_apply {φ₁ φ₂ : FTy} (lhs : FVec Ideal S2000x256 φ₁) (rhs : FVec Ideal S2000x128 φ₂)
    (h : Fin 256) (j : Fin 128) :
    FloatOps.matmul dot_S2000x256_S2000x128_S256x128_0_0_1_1_n_n none lhs rhs (constant S256x128 .f32 0x00000000#32) (ix2 h j)
      = ∑ r : Fin 2000, lhs (ix2 r h) * rhs (ix2 r j) := by
  rw [Ideal.matmul_constant_zero_apply,
    ← Equiv.sum_comp (contrEquiv1 dot_S2000x256_S2000x128_S256x128_0_0_1_1_n_n 2000 rfl rfl).symm]
  refine Finset.sum_congr rfl fun k _ => ?_
  have hk := contrEquiv1_symm_val dot_S2000x256_S2000x128_S256x128_0_0_1_1_n_n 2000 rfl rfl k
  have el : dot_S2000x256_S2000x128_S256x128_0_0_1_1_n_n.lhsIdx (ix2 h j)
      ((contrEquiv1 dot_S2000x256_S2000x128_S256x128_0_0_1_1_n_n 2000 rfl rfl).symm k) = ix2 k h :=
    funext fun a => Fin.ext (by
      match a with
      | ⟨0, _⟩ => exact (tl_row _ _).trans hk
      | ⟨1, _⟩ => exact tl_col _ _)
  have er : dot_S2000x256_S2000x128_S256x128_0_0_1_1_n_n.rhsIdx (ix2 h j)
      ((contrEquiv1 dot_S2000x256_S2000x128_S256x128_0_0_1_1_n_n 2000 rfl rfl).symm k) = ix2 k j :=
    funext fun a => Fin.ext (by
      match a with
      | ⟨0, _⟩ => exact (tr_row _ _).trans hk
      | ⟨1, _⟩ => exact tr_col _ _)
  rw [el, er]

/-! ## The stages of the body, as blocks -/

/-- The index a reduction over the 256 lanes of a 2000-row block inserts: row r, lane k. -/
theorem lift256 (r : Fin 2000) (k : Fin 256) : reduces_S2000x256_S2000.lift (ix1 r) k = ix2 r k :=
  funext fun a => Fin.ext (by match a with | ⟨0, _⟩ => rfl | ⟨1, _⟩ => rfl)

/-- The Gumbel noise of a block of uniform samples, negation written as subtraction from the zero splat. -/
def noiseBlk (U : Vec Ideal S2000x256 .f32) : FVec Ideal S2000x256 .f32 :=
  subf (broadcast S2000x256 (Scalar.ofBits .f32 0x00000000#32))
    (log (addf (subf (broadcast S2000x256 (Scalar.ofBits .f32 0x00000000#32))
        (log (addf U (broadcast S2000x256 (Scalar.ofBits .f32 0x2EDBE6FF#32)))))
      (broadcast S2000x256 (Scalar.ofBits .f32 0x2EDBE6FF#32))))

/-- The tempered, noised scores of a block of embeddings. -/
def scoreBlk (E : FVec Ideal S2000x128 .f32) (W : Vec Ideal S128x256 .f32) (U : Vec Ideal S2000x256 .f32) :
    FVec Ideal S2000x256 .f32 :=
  divf (addf (matmul dot_S2000x128_S128x256_S2000x256_1_0_0_1_n_n none (truncf .bf16 E bitsLt_bf16_f32)
      (truncf .bf16 W bitsLt_bf16_f32) (constant S2000x256 .f32 0x00000000#32)) (noiseBlk U))
    (broadcast S2000x256 (Scalar.ofBits .f32 0x3F000000#32))

/-- Each row's maximum (folded from minus infinity, maxed once more against it), spread back over the row's lanes. -/
def topBlk (Z : FVec Ideal S2000x256 .f32) : FVec Ideal S2000x256 .f32 :=
  broadcastTo S2000x256
    (shapeCast S2000x1
      (maximumf (broadcast S2000 (Scalar.ofBits .f32 0xFF800000#32))
        (multiReduction .maximumf [1] S2000 Z 0xFF800000#32 reduces_S2000x256_S2000 (.inl rfl) rfl))
      shapeCasts_S2000_S2000x1)
    broadcasts_S2000x1_S2000x256

/-- The exponentials of the scores shifted by their row's maximum. -/
def expBlk (Z : FVec Ideal S2000x256 .f32) : FVec Ideal S2000x256 .f32 := exp (subf Z (topBlk Z))

/-- Each row's sum, spread back over the row's lanes. -/
def sumBlk (X : FVec Ideal S2000x256 .f32) : FVec Ideal S2000x256 .f32 :=
  broadcastTo S2000x256
    (shapeCast S2000x1
      (multiReduction .add [1] S2000 X 0x00000000#32 reduces_S2000x256_S2000 (.inl rfl) rfl)
      shapeCasts_S2000_S2000x1)
    broadcasts_S2000x1_S2000x256

variable (x0 : Vec Ideal S2000x384 .f32) (x1 : Vec Ideal S2000x256 .f32) (x2 : Vec Ideal S384x128 .f32)
  (x3 : Vec Ideal S128 .f32) (x4 : Vec Ideal S128x256 .f32)

/-- The exponential payload is the exponential stage of the scores of the embedding payload. -/
theorem pay4_eq : k0_pay4 (F := Ideal) x0 x2 x3 x4 x1 = expBlk (scoreBlk (k0_pay3 (F := Ideal) x0 x2 x3) x4 x1) := rfl

/-- The accumulator payload: the old accumulator plus the row-contracting product of (exponentials over their
    row sums) with the embeddings. -/
theorem pay1_eq (v11 : FVec Ideal S2000x128 .f32) (v36 : FVec Ideal S2000x256 .f32) (v44 : Vec Ideal S256x128 .f32) :
    k0_pay1 (F := Ideal) v11 v36 v44
      = addf (shapeCast S256x128 v44 shapeCasts_S256x128_S256x128)
          (matmul dot_S2000x256_S2000x128_S256x128_0_0_1_1_n_n none
            (truncf .bf16 (divf v36 (sumBlk v36)) bitsLt_bf16_f32) (truncf .bf16 v11 bitsLt_bf16_f32)
            (constant S256x128 .f32 0x00000000#32)) := rfl

/-! ## Each stage read at a row and a lane -/

section Stages
variable (r : Fin 2000)

/-- The noise stage is the Gumbel transform of the sample (subtracting from zero is negation). -/
theorem noiseBlk_apply (U : Vec Ideal S2000x256 .f32) (h : Fin 256) : noiseBlk U (ix2 r h) = gumbel (mat U r h) := by
  show Ideal.ofBits .f32 0x00000000#32 - Ideal.log ((Ideal.ofBits .f32 0x00000000#32 - Ideal.log (U (ix2 r h) + eps)) + eps)
    = -Ideal.log (-Ideal.log (U (ix2 r h) + eps) + eps)
  rw [Ideal.ofBits_zero_f32, zero_sub, zero_sub]

/-- The scores at row r are the row's scores. -/
theorem scoreBlk_apply (E : FVec Ideal S2000x128 .f32) (W : Vec Ideal S128x256 .f32) (U : Vec Ideal S2000x256 .f32)
    (h : Fin 256) : scoreBlk E W U (ix2 r h) = scoreRow (mat E r) (mat W) (mat U r) h := by
  show Ideal.div (matmul (F := Ideal) dot_S2000x128_S128x256_S2000x256_1_0_0_1_n_n none (truncf .bf16 E bitsLt_bf16_f32)
      (truncf .bf16 W bitsLt_bf16_f32) (constant S2000x256 .f32 0x00000000#32) (ix2 r h) + noiseBlk U (ix2 r h)) half
    = Ideal.div (rowTimes (mat E r) (mat W) h + gumbel (mat U r h)) half
  rw [noiseBlk_apply]
  refine congrArg (fun t => Ideal.div (t + gumbel (mat U r h)) half) ?_
  exact PlainDot.matmul_zero_apply (M := 2000) (K := 128) (N := 256) none _ _ r h

/-- The maximum stage at row r, any lane, is the row's maximum. -/
theorem topBlk_apply (Z : FVec Ideal S2000x256 .f32) (h : Fin 256) : topBlk Z (ix2 r h) = rowTop (mat Z r) := by
  refine (broadcastTo_a1_ab_apply _ _ r h).trans ?_
  refine (shapeCast_a_a1_apply _ _ r 0).trans ?_
  refine (maximumf_apply _ _ (ix1 r)).trans ?_
  show _ = max negInf ((Finset.univ : Finset (Fin 256)).fold max negInf (mat Z r))
  refine congrArg₂ max rfl ?_
  refine (Ideal.multiReduction_maximumf_single Z _ reduces_S2000x256_S2000 (.inl rfl) rfl (ix1 r)).trans ?_
  have e : (Z ∘ reduces_S2000x256_S2000.lift (ix1 r)) = mat Z r := funext fun k => congrArg Z (lift256 r k)
  exact congrArg (fun f => (Finset.univ : Finset (Fin 256)).fold max negInf f) e

/-- The exponential stage at row r is the row's shifted exponentials. -/
theorem expBlk_apply (Z : FVec Ideal S2000x256 .f32) (h : Fin 256) : expBlk Z (ix2 r h) = expShift (mat Z r) h := by
  show Ideal.exp (Z (ix2 r h) - topBlk Z (ix2 r h)) = Ideal.exp (Z (ix2 r h) - rowTop (mat Z r))
  rw [topBlk_apply]

/-- The sum stage at row r, any lane, is the sum of the row. -/
theorem sumBlk_apply (X : FVec Ideal S2000x256 .f32) (h : Fin 256) : sumBlk X (ix2 r h) = ∑ h' : Fin 256, X (ix2 r h') := by
  refine (broadcastTo_a1_ab_apply _ _ r h).trans ?_
  refine (shapeCast_a_a1_apply _ _ r 0).trans ?_
  refine (Ideal.multiReduction_add_single X _ reduces_S2000x256_S2000 (.inl rfl) rfl (ix1 r)).trans ?_
  exact Finset.sum_congr rfl fun k _ => congrArg X (lift256 r k)

end Stages

/-! ## The payloads at an index -/

/-- Entry (r, j) of the embedding block: feature row r times column j of the weights, plus bias j. -/
theorem pay3_apply (r : Fin 2000) (j : Fin 128) :
    k0_pay3 (F := Ideal) x0 x2 x3 (ix2 r j) = rowAffine (mat x0 r) (mat x2) (vec x3) j := by
  unfold k0_pay3
  refine (addf_apply _ _ (ix2 r j)).trans ?_
  show _ = rowTimes (mat x0 r) (mat x2) j + vec x3 j
  refine congrArg₂ (· + ·) ?_ ?_
  · exact PlainDot.matmul_zero_apply (M := 2000) (K := 384) (N := 128) none _ _ r j
  · refine (broadcastTo_1b_ab_apply _ _ r j).trans ?_
    exact shapeCast_a_1a_apply _ _ 0 j

/-- Row r of the embedding block is the row's affine image. -/
theorem emb_row (r : Fin 2000) : mat (k0_pay3 (F := Ideal) x0 x2 x3) r = rowAffine (mat x0 r) (mat x2) (vec x3) :=
  funext fun j => pay3_apply x0 x2 x3 r j

/-- Row r of the scores of the embedding block is the row's scores. -/
theorem score_row (r : Fin 2000) :
    mat (scoreBlk (k0_pay3 (F := Ideal) x0 x2 x3) x4 x1) r
      = scoreRow (rowAffine (mat x0 r) (mat x2) (vec x3)) (mat x4) (mat x1 r) := by
  funext h
  show scoreBlk (k0_pay3 (F := Ideal) x0 x2 x3) x4 x1 (ix2 r h) = _
  rw [scoreBlk_apply, emb_row]

/-- Entry (r, h) of the exponential block: the row's shifted exponential at lane h. -/
theorem pay4_apply (r : Fin 2000) (h : Fin 256) :
    k0_pay4 (F := Ideal) x0 x2 x3 x4 x1 (ix2 r h)
      = expShift (scoreRow (rowAffine (mat x0 r) (mat x2) (vec x3)) (mat x4) (mat x1 r)) h := by
  rw [pay4_eq, expBlk_apply, score_row]

/-- The accumulator update at (h, j), over any blocks: the old entry plus the sum over the block's rows of
    (entry (r, h) over row r's sum) times entry (r, j). -/
theorem pay1_apply (v11 : FVec Ideal S2000x128 .f32) (v36 : FVec Ideal S2000x256 .f32) (v44 : Vec Ideal S256x128 .f32)
    (h : Fin 256) (j : Fin 128) :
    k0_pay1 (F := Ideal) v11 v36 v44 (ix2 h j)
      = v44 (ix2 h j) + ∑ r : Fin 2000, Ideal.div (v36 (ix2 r h)) (∑ h' : Fin 256, v36 (ix2 r h')) * v11 (ix2 r j) := by
  rw [pay1_eq]
  refine (addf_apply _ _ (ix2 h j)).trans ?_
  refine congrArg₂ (· + ·) ?_ ?_
  · exact congrFun (shapeCast_self v44 shapeCasts_S256x128_S256x128) (ix2 h j)
  · refine (matmulT_zero_apply _ _ h j).trans ?_
    refine Finset.sum_congr rfl fun r _ => ?_
    show Ideal.div (v36 (ix2 r h)) (sumBlk v36 (ix2 r h)) * v11 (ix2 r j) = _
    rw [sumBlk_apply]

/-- The accumulator update of the body: the old entry plus the block's share of the latent features. -/
theorem acc_apply (v44 : Vec Ideal S256x128 .f32) (h : Fin 256) (j : Fin 128) :
    k0_pay1 (F := Ideal) (k0_pay3 (F := Ideal) x0 x2 x3) (k0_pay4 (F := Ideal) x0 x2 x3 x4 x1) v44 (ix2 h j)
      = v44 (ix2 h j)
        + latent (fun r : Fin 2000 => assignRow (rowAffine (mat x0 r) (mat x2) (vec x3)) (mat x4) (mat x1 r))
            (fun r : Fin 2000 => rowAffine (mat x0 r) (mat x2) (vec x3)) h j := by
  rw [pay1_apply]
  refine congrArg (v44 (ix2 h j) + ·) ?_
  refine Finset.sum_congr rfl fun r _ => ?_
  rw [pay3_apply, pay4_apply]
  refine congrArg (· * rowAffine (mat x0 r) (mat x2) (vec x3) j) ?_
  show _ = Ideal.div (expShift (scoreRow (rowAffine (mat x0 r) (mat x2) (vec x3)) (mat x4) (mat x1 r)) h)
    (∑ h' : Fin 256, expShift (scoreRow (rowAffine (mat x0 r) (mat x2) (vec x3)) (mat x4) (mat x1 r)) h')
  exact congrArg (Ideal.div _) (Finset.sum_congr rfl fun k _ => pay4_apply x0 x1 x2 x3 x4 r k)

/-- The accumulator's first value is zero. -/
theorem pay2_apply (h : Fin 256) (j : Fin 128) : k0_pay2 (F := Ideal) (ix2 h j) = 0 := by
  show Ideal.ofBits .f32 0x00000000#32 = 0
  exact Ideal.ofBits_zero_f32

end Cert.KernelIdeal.BodyA

end
-- ==== Proof.Middle.lean ====
/-
  The host operations between the two kernel launches, read at the arrays the second kernel is launched on.

  Between the launches the program computes, from the edge list and the first kernel's embeddings, the
  graph-propagated embeddings: the degree of every node (ones scattered onto the edge targets), its inverse square
  root where positive and zero elsewhere, an edge weight (the product of the two end nodes' values), and three
  rounds of gather along the edge sources, scaling by the edge weight and scatter-add onto the edge targets, summed
  with the embeddings and divided by 4. The reference runs the same operations in the same order on its own
  embeddings, so once the first kernel's embeddings are the reference's the propagated array is the reference's: each
  stretch is read as its composed term over ANY contents, and the terms are the reference's stages by unfolding.
  No operation of the stretch writes an argument, the embeddings or the latent features, so the second kernel finds
  them as the launch and the first kernel left them.
-/
import proofs.«138085_j29712583754279_1_alg».proof.Proof.Gen.KernelIdeal.Frame
import proofs.«138085_j29712583754279_1_alg».proof.Proof.RefReadPatched
import Idealize.ShloMosaic.Lib.StableHlo.Run

set_option maxRecDepth 16384

noncomputable section

namespace Cert.KernelIdeal.Middle

open Cert.KernelIdeal Cert.KernelIdeal.Gen
open Idealize.ShloMosaic Idealize.ShloMosaic.TcCoe Idealize.SL.Sem Idealize.ShloMosaic.StableHlo
open Idealize.ShloMosaic.Pipeline (Dat)

/-! ## The host stretches over any contents -/

section AnyContents
variable (V : Valuation τ sig (Elt Ideal))

/-- The contents after the first four stretches, from contents V. -/
abbrev upTo4 : Valuation τ sig (Elt Ideal) :=
  StableHlo.after (hostOps1_3 (F := Ideal)) (StableHlo.after (hostOps1_2 (F := Ideal))
    (StableHlo.after (hostOps1_1 (F := Ideal)) (StableHlo.after (hostOps1 (F := Ideal)) V)))

/-! ### The first stretch: the edge list split, the degrees, their positivity -/

set_option maxHeartbeats 4000000 in
/-- The degrees: ones scattered onto the edge targets. -/
theorem first_deg (x1 : (⟨S2x600000, .i32⟩ : BufTy).Contents (Elt Ideal)) (h1 : V (Proc.devRef .tc main_arg1) = x1) :
    StableHlo.after (hostOps1 (F := Ideal)) V (Proc.devRef .tc main_v8) = Cert.ReferenceIdeal.ReadP.val_main_v7 (F := Ideal) x1 := by
  after_results_simp
  rw [h1]
  rfl

set_option maxHeartbeats 4000000 in
/-- The mask of the nodes of positive degree. -/
theorem first_pos (x1 : (⟨S2x600000, .i32⟩ : BufTy).Contents (Elt Ideal)) (h1 : V (Proc.devRef .tc main_arg1) = x1) :
    StableHlo.after (hostOps1 (F := Ideal)) V (Proc.devRef .tc main_v10) = Cert.ReferenceIdeal.ReadP.val_main_v9 (F := Ideal) x1 := by
  after_results_simp
  rw [h1]
  rfl

set_option maxHeartbeats 4000000 in
/-- The same mask, computed a second time. -/
theorem first_pos' (x1 : (⟨S2x600000, .i32⟩ : BufTy).Contents (Elt Ideal)) (h1 : V (Proc.devRef .tc main_arg1) = x1) :
    StableHlo.after (hostOps1 (F := Ideal)) V (Proc.devRef .tc main_v12) = Cert.ReferenceIdeal.ReadP.val_main_v11 (F := Ideal) x1 := by
  after_results_simp
  rw [h1]
  rfl

set_option maxHeartbeats 4000000 in
/-- The one the first call selects. -/
theorem first_one :
    StableHlo.after (hostOps1 (F := Ideal)) V (Proc.devRef .tc main_cst_3) = Cert.ReferenceIdeal.ReadP.val_main_cst_3 (F := Ideal) := by
  after_results_simp
  rfl

/-! ### The two calls of the select helper and the power between them -/

set_option maxHeartbeats 4000000 in
/-- The first call: the degree where it is positive, one elsewhere. -/
theorem call0_apply :
    StableHlo.after (hostOps1_1 (F := Ideal)) V (Proc.devRef .tc main_v13)
      = select (V (Proc.devRef .tc main_v12)) (V (Proc.devRef .tc main_v8))
          (broadcastInDim S50000 ![] bcast_S_S50000 (V (Proc.devRef .tc main_cst_3))) := by
  after_results_simp
  rfl

set_option maxHeartbeats 4000000 in
/-- The power: the clamped degree to the power -1/2. -/
theorem pow_apply :
    StableHlo.after (hostOps1_2 (F := Ideal)) V (Proc.devRef .tc main_v15)
      = Host.powf (V (Proc.devRef .tc main_v13))
          (broadcastInDim S50000 ![] bcast_S_S50000 (constant (F := Ideal) S_ .f32 0xBF000000#32)) := by
  after_results_simp

set_option maxHeartbeats 4000000 in
/-- The zero the second call selects. -/
theorem zero_apply :
    StableHlo.after (hostOps1_2 (F := Ideal)) V (Proc.devRef .tc main_cst_5) = constant (F := Ideal) S_ .f32 0x00000000#32 := by
  after_results_simp

set_option maxHeartbeats 4000000 in
/-- The second call: the power where the degree is positive, zero elsewhere. -/
theorem call1_apply :
    StableHlo.after (hostOps1_3 (F := Ideal)) V (Proc.devRef .tc main_v16)
      = select (V (Proc.devRef .tc main_v10)) (V (Proc.devRef .tc main_v15))
          (broadcastInDim S50000 ![] bcast_S_S50000 (V (Proc.devRef .tc main_cst_5))) := by
  after_results_simp
  rfl

set_option maxHeartbeats 4000000 in
/-- The first call and the power leave the positivity mask in place. -/
theorem keep_mask :
    StableHlo.after (hostOps1_2 (F := Ideal)) (StableHlo.after (hostOps1_1 (F := Ideal)) V) (Proc.devRef .tc main_v10)
      = V (Proc.devRef .tc main_v10) := by
  after_results_simp

/-! ### What the first four stretches leave for the last -/

set_option maxHeartbeats 4000000 in
/-- The edge sources are the first row of the edge array. -/
theorem early_src (x1 : (⟨S2x600000, .i32⟩ : BufTy).Contents (Elt Ideal)) (h1 : V (Proc.devRef .tc main_arg1) = x1) :
    upTo4 V (Proc.devRef .tc main_v2) = Cert.ReferenceIdeal.ReadP.val_main_v1 (F := Ideal) x1 := by
  after_results_simp
  rw [h1]
  rfl

set_option maxHeartbeats 4000000 in
/-- The edge targets are the second row of the edge array. -/
theorem early_dst (x1 : (⟨S2x600000, .i32⟩ : BufTy).Contents (Elt Ideal)) (h1 : V (Proc.devRef .tc main_arg1) = x1) :
    upTo4 V (Proc.devRef .tc main_v4) = Cert.ReferenceIdeal.ReadP.val_main_v3 (F := Ideal) x1 := by
  after_results_simp
  rw [h1]
  rfl

set_option maxHeartbeats 4000000 in
/-- The inverse square roots of the degrees, zero at the nodes no edge reaches, are the reference's. -/
theorem early_dinv (x1 : (⟨S2x600000, .i32⟩ : BufTy).Contents (Elt Ideal)) (h1 : V (Proc.devRef .tc main_arg1) = x1) :
    upTo4 V (Proc.devRef .tc main_v16) = Cert.ReferenceIdeal.ReadP.val_main_v15 (F := Ideal) x1 := by
  refine (call1_apply _).trans ?_
  rw [keep_mask, pow_apply, zero_apply, call0_apply, first_pos V x1 h1, first_pos' V x1 h1, first_deg V x1 h1, first_one V]
  rfl

set_option maxHeartbeats 4000000 in
/-- The first four stretches leave the embeddings in place. -/
theorem early_emb : upTo4 V (Proc.devRef .tc main_v0_0) = V (Proc.devRef .tc main_v0_0) := by
  after_results_simp

/-! ### The last stretch: the propagation over the edges -/

set_option maxHeartbeats 4000000 in
/-- The last stretch, from any contents holding the edge sources, the edge targets, the inverse square-root degrees and
    the embeddings: three rounds of gather, scale, scatter-add over the edges, summed with the embeddings and divided by 4. -/
theorem stretch4 (x0 : (⟨S50000x384, .f32⟩ : BufTy).Contents (Elt Ideal)) (x1 : (⟨S2x600000, .i32⟩ : BufTy).Contents (Elt Ideal))
    (x3 : (⟨S384x128, .f32⟩ : BufTy).Contents (Elt Ideal)) (x4 : (⟨S128, .f32⟩ : BufTy).Contents (Elt Ideal))
    (h2 : V (Proc.devRef .tc main_v2) = Cert.ReferenceIdeal.ReadP.val_main_v1 (F := Ideal) x1)
    (h4 : V (Proc.devRef .tc main_v4) = Cert.ReferenceIdeal.ReadP.val_main_v3 (F := Ideal) x1)
    (h16 : V (Proc.devRef .tc main_v16) = Cert.ReferenceIdeal.ReadP.val_main_v15 (F := Ideal) x1)
    (hE : V (Proc.devRef .tc main_v0_0) = Cert.ReferenceIdeal.ReadP.val_main_v34 (F := Ideal) x0 x3 x4) :
    StableHlo.after (hostOps1_4 (F := Ideal)) V (Proc.devRef .tc main_v75)
      = Cert.ReferenceIdeal.ReadP.val_main_v78 (F := Ideal) x0 x1 x3 x4 := by
  after_results_simp
  rw [h2, h4, h16, hE]
  rfl

set_option maxHeartbeats 4000000 in
/-- No host operation of the five stretches writes the embeddings. -/
theorem keep_emb : StableHlo.after (hostOps1_4 (F := Ideal)) (upTo4 V) (Proc.devRef .tc main_v0_0) = V (Proc.devRef .tc main_v0_0) := by
  after_results_simp

set_option maxHeartbeats 4000000 in
/-- No host operation of the five stretches writes the latent features. -/
theorem keep_lat : StableHlo.after (hostOps1_4 (F := Ideal)) (upTo4 V) (Proc.devRef .tc main_v0_1) = V (Proc.devRef .tc main_v0_1) := by
  after_results_simp

end AnyContents
/-! ## What the second kernel is launched on -/

variable (m : (ℓ : Loc nD τ sig) → Buf (Elt Ideal) ℓ) (ρ : Dev nD → PrngReg) (c : Dev nD)

/-- The embeddings the second kernel reads are what the first kernel left. -/
theorem mid_emb : W6 m ρ c (Proc.devRef .tc main_v0_0) = (dat0 (V0 m ρ) c).arrAt 5 cfg0.N :=
  (keep_emb (W1 m ρ c)).trans (W1_arr m ρ c 5)

/-- The latent features the second kernel reads are what the first kernel left. -/
theorem mid_lat : W6 m ρ c (Proc.devRef .tc main_v0_1) = (dat0 (V0 m ρ) c).arrAt 6 cfg0.N :=
  (keep_lat (W1 m ρ c)).trans (W1_arr m ρ c 6)

/-- The six arguments the second kernel reads are as launched. -/
theorem mid_arg2 : W6 m ρ c (Proc.devRef .tc main_arg2) = m ((c : Thread nD τ).loc main_arg2) :=
  ((W7_arr m ρ c 1).trans (((dat1 (V6 m ρ) c).arrAt_in 1 rfl _).trans (A_eq1 (V6 m ρ) c 1))).symm.trans (W7_main_arg2 m ρ c)
theorem mid_arg5 : W6 m ρ c (Proc.devRef .tc main_arg5) = m ((c : Thread nD τ).loc main_arg5) :=
  ((W7_arr m ρ c 3).trans (((dat1 (V6 m ρ) c).arrAt_in 3 rfl _).trans (A_eq1 (V6 m ρ) c 3))).symm.trans (W7_main_arg5 m ρ c)
theorem mid_arg6 : W6 m ρ c (Proc.devRef .tc main_arg6) = m ((c : Thread nD τ).loc main_arg6) :=
  ((W7_arr m ρ c 5).trans (((dat1 (V6 m ρ) c).arrAt_in 5 rfl _).trans (A_eq1 (V6 m ρ) c 5))).symm.trans (W7_main_arg6 m ρ c)
theorem mid_arg7 : W6 m ρ c (Proc.devRef .tc main_arg7) = m ((c : Thread nD τ).loc main_arg7) :=
  ((W7_arr m ρ c 6).trans (((dat1 (V6 m ρ) c).arrAt_in 6 rfl _).trans (A_eq1 (V6 m ρ) c 6))).symm.trans (W7_main_arg7 m ρ c)
theorem mid_arg8 : W6 m ρ c (Proc.devRef .tc main_arg8) = m ((c : Thread nD τ).loc main_arg8) :=
  ((W7_arr m ρ c 7).trans (((dat1 (V6 m ρ) c).arrAt_in 7 rfl _).trans (A_eq1 (V6 m ρ) c 7))).symm.trans (W7_main_arg8 m ρ c)
theorem mid_arg9 : W6 m ρ c (Proc.devRef .tc main_arg9) = m ((c : Thread nD τ).loc main_arg9) :=
  ((W7_arr m ρ c 8).trans (((dat1 (V6 m ρ) c).arrAt_in 8 rfl _).trans (A_eq1 (V6 m ρ) c 8))).symm.trans (W7_main_arg9 m ρ c)

/-- The propagated embeddings the second kernel reads are the reference's, when the first kernel's embeddings are. -/
theorem mid_loc
    (hE : (dat0 (V0 m ρ) c).arrAt 5 cfg0.N = Cert.ReferenceIdeal.ReadP.val_main_v34 (F := Ideal) (m ((c : Thread nD τ).loc main_arg0))
      (m ((c : Thread nD τ).loc main_arg3)) (m ((c : Thread nD τ).loc main_arg4))) :
    W6 m ρ c (Proc.devRef .tc main_v75) = Cert.ReferenceIdeal.ReadP.val_main_v78 (F := Ideal) (m ((c : Thread nD τ).loc main_arg0))
      (m ((c : Thread nD τ).loc main_arg1)) (m ((c : Thread nD τ).loc main_arg3)) (m ((c : Thread nD τ).loc main_arg4)) := by
  have h1 : W1 m ρ c (Proc.devRef .tc main_arg1) = m ((c : Thread nD τ).loc main_arg1) :=
    W1_of_ne m ρ c main_arg1 (by decide)
  exact stretch4 (upTo4 (W1 m ρ c)) _ _ _ _ (early_src _ _ h1) (early_dst _ _ h1) (early_dinv _ _ h1)
    ((early_emb (W1 m ρ c)).trans ((W1_arr m ρ c 5).trans hE))

end Cert.KernelIdeal.Middle

end
-- ==== Proof.Pieces.lean ====
/-
  What the first kernel's body leaves in its two output buffers, in each of its two control cases.

  At the first grid point the body first clears the latent accumulator and reads it back; at every later
  point it finds the previous point's accumulator. In both cases the embedding block it stores is the same
  pure function of the loaded blocks, and the accumulator it stores is the update function of the
  embedding block, the exponentials and the accumulator it read: the zero block in the first case, the
  carried contents otherwise.
-/
import proofs.«138085_j29712583754279_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

theorem outB6 (c : Dev nD) (i : grid0.Coords) (arg1 : Memref sig .tc .vmem S2000x384 .f32) (harg1 : arg1.IsWhole) (arg2 : Memref sig .tc .vmem S2000x256 .f32) (harg2 : arg2.IsWhole) (arg3 : Memref sig .tc .vmem S384x128 .f32) (harg3 : arg3.IsWhole) (arg4 : Memref sig .tc .vmem S128 .f32) (harg4 : arg4.IsWhole) (arg5 : Memref sig .tc .vmem S128x256 .f32) (harg5 : arg5.IsWhole) (arg6 : Memref sig .tc .vmem S2000x128 .f32) (harg6 : arg6.IsWhole) (arg7 : Memref sig .tc .vmem S256x128 .f32) (harg7 : arg7.IsWhole) (hc0 : ¬cond0_0 i) (x0 : Vec F S2000x384 .f32) (x1 : Vec F S2000x256 .f32) (x2 : Vec F S384x128 .f32) (x3 : Vec F S128 .f32) (x4 : Vec F S128x256 .f32) (xo : Vec F S256x128 .f32) :
    out0_B_6 c i arg1 harg1 arg2 harg2 arg3 harg3 arg4 harg4 arg5 harg5 arg6 harg6 arg7 harg7 hc0 x0 x1 x2 x3 x4 xo = k0_pay1 (k0_pay3 x0 x2 x3) (k0_pay4 x0 x2 x3 x4 x1) xo := by
  unfold out0_B_6
  rw [View.read_writes_eq_canon _ _ _ (cover0_B_6 c i arg1 harg1 arg2 harg2 arg3 harg3 arg4 harg4 arg5 harg5 arg6 harg6 arg7 harg7 hc0 x0 x1 x2 x3 x4 xo)]
  unfold kernelRun0_B
  dsimp only
  sl_unfold_words
  rw [View.canon_unit_zero hz2]
  simp only [View.readAt_eq_ld, harg1.read_unread, harg2.read_unread, harg3.read_unread, harg4.read_unread, harg5.read_unread, harg7.read_unread,
    View.ld_unit_zero (S := S2000x384) hz2, View.ld_unit_zero (S := S2000x256) hz2, View.ld_unit_zero (S := S384x128) hz2,
    View.ld_unit_zero (S := S128x256) hz2, View.ld_unit_zero (S := S256x128) hz2, View.ld_unit_zero (S := S128) hz1]

theorem outA6 (c : Dev nD) (i : grid0.Coords) (arg1 : Memref sig .tc .vmem S2000x384 .f32) (harg1 : arg1.IsWhole) (arg2 : Memref sig .tc .vmem S2000x256 .f32) (harg2 : arg2.IsWhole) (arg3 : Memref sig .tc .vmem S384x128 .f32) (harg3 : arg3.IsWhole) (arg4 : Memref sig .tc .vmem S128 .f32) (harg4 : arg4.IsWhole) (arg5 : Memref sig .tc .vmem S128x256 .f32) (harg5 : arg5.IsWhole) (arg6 : Memref sig .tc .vmem S2000x128 .f32) (harg6 : arg6.IsWhole) (arg7 : Memref sig .tc .vmem S256x128 .f32) (harg7 : arg7.IsWhole) (hc0 : cond0_0 i) (x0 : Vec F S2000x384 .f32) (x1 : Vec F S2000x256 .f32) (x2 : Vec F S384x128 .f32) (x3 : Vec F S128 .f32) (x4 : Vec F S128x256 .f32) :
    out0_A_6 c i arg1 harg1 arg2 harg2 arg3 harg3 arg4 harg4 arg5 harg5 arg6 harg6 arg7 harg7 hc0 x0 x1 x2 x3 x4 = k0_pay1 (k0_pay3 x0 x2 x3) (k0_pay4 x0 x2 x3 x4 x1) k0_pay2 := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S256x128) hz2, View.readCov_unit_zero (S := S256x128) _ hz2]
  simp only [View.readAt_eq_ld, harg1.read_unread, harg2.read_unread, harg3.read_unread, harg4.read_unread, harg5.read_unread, harg7.read_unread,
    View.ld_unit_zero (S := S2000x384) hz2, View.ld_unit_zero (S := S2000x256) hz2, View.ld_unit_zero (S := S384x128) hz2,
    View.ld_unit_zero (S := S128x256) hz2, View.ld_unit_zero (S := S256x128) hz2, View.ld_unit_zero (S := S128) hz1]

theorem outB5 (c : Dev nD) (i : grid0.Coords) (arg1 : Memref sig .tc .vmem S2000x384 .f32) (harg1 : arg1.IsWhole) (arg2 : Memref sig .tc .vmem S2000x256 .f32) (harg2 : arg2.IsWhole) (arg3 : Memref sig .tc .vmem S384x128 .f32) (harg3 : arg3.IsWhole) (arg4 : Memref sig .tc .vmem S128 .f32) (harg4 : arg4.IsWhole) (arg5 : Memref sig .tc .vmem S128x256 .f32) (harg5 : arg5.IsWhole) (arg6 : Memref sig .tc .vmem S2000x128 .f32) (harg6 : arg6.IsWhole) (arg7 : Memref sig .tc .vmem S256x128 .f32) (harg7 : arg7.IsWhole) (hc0 : ¬cond0_0 i) (x0 : Vec F S2000x384 .f32) (x1 : Vec F S2000x256 .f32) (x2 : Vec F S384x128 .f32) (x3 : Vec F S128 .f32) (x4 : Vec F S128x256 .f32) (xo : Vec F S256x128 .f32) :
    out0_B_5 c i arg1 harg1 arg2 harg2 arg3 harg3 arg4 harg4 arg5 harg5 arg6 harg6 arg7 harg7 hc0 x0 x1 x2 x3 x4 xo = k0_pay3 x0 x2 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo)]
  unfold kernelRun0_B
  dsimp only
  sl_unfold_words
  rw [View.canon_unit_zero hz2]
  simp only [View.readAt_eq_ld, harg1.read_unread, harg2.read_unread, harg3.read_unread, harg4.read_unread, harg5.read_unread, harg7.read_unread,
    View.ld_unit_zero (S := S2000x384) hz2, View.ld_unit_zero (S := S2000x256) hz2, View.ld_unit_zero (S := S384x128) hz2,
    View.ld_unit_zero (S := S128x256) hz2, View.ld_unit_zero (S := S256x128) hz2, View.ld_unit_zero (S := S128) hz1]

theorem outA5 (c : Dev nD) (i : grid0.Coords) (arg1 : Memref sig .tc .vmem S2000x384 .f32) (harg1 : arg1.IsWhole) (arg2 : Memref sig .tc .vmem S2000x256 .f32) (harg2 : arg2.IsWhole) (arg3 : Memref sig .tc .vmem S384x128 .f32) (harg3 : arg3.IsWhole) (arg4 : Memref sig .tc .vmem S128 .f32) (harg4 : arg4.IsWhole) (arg5 : Memref sig .tc .vmem S128x256 .f32) (harg5 : arg5.IsWhole) (arg6 : Memref sig .tc .vmem S2000x128 .f32) (harg6 : arg6.IsWhole) (arg7 : Memref sig .tc .vmem S256x128 .f32) (harg7 : arg7.IsWhole) (hc0 : cond0_0 i) (x0 : Vec F S2000x384 .f32) (x1 : Vec F S2000x256 .f32) (x2 : Vec F S384x128 .f32) (x3 : Vec F S128 .f32) (x4 : Vec F S128x256 .f32) :
    out0_A_5 c i arg1 harg1 arg2 harg2 arg3 harg3 arg4 harg4 arg5 harg5 arg6 harg6 arg7 harg7 hc0 x0 x1 x2 x3 x4 = k0_pay3 x0 x2 x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread, harg7.read_unread,
    View.ld_unit_zero (S := S2000x384) hz2, View.ld_unit_zero (S := S2000x256) hz2, View.ld_unit_zero (S := S384x128) hz2,
    View.ld_unit_zero (S := S128x256) hz2, View.ld_unit_zero (S := S256x128) hz2, View.ld_unit_zero (S := S128) hz1]

end Cert.KernelIdeal.Pieces
end
-- ==== Proof.LatentSum.lean ====
/-
  The latent features as a running sum over blocks of rows.

  The latent entry (h, j) is a sum over all 50000 nodes of assignment · embedding. A program that visits the
  nodes 2000 at a time and adds each block's partial sum to a running total computes the same extended real:
  addition on the extended reals is commutative and associative (no distributivity, no cancellation is used),
  so the sum over the first 2000·(n+1) nodes is the sum over the first 2000·n nodes plus the block's own sum.
-/
import proofs.«138085_j29712583754279_1_alg».proof.Proof.RowMath

noncomputable section

open scoped BigOperators

namespace Cert.RowMath

variable (a : Fin 50000 → Fin 256 → EReal) (e : Fin 50000 → Fin 128 → EReal) (h : Fin 256) (j : Fin 128)

/-- Node q's contribution to the latent entry (h, j); zero past the last node. -/
def contrib (q : ℕ) : EReal := if hq : q < 50000 then a ⟨q, hq⟩ h * e ⟨q, hq⟩ j else 0

/-- The latent entry summed over the first N nodes. -/
def latUpTo (N : ℕ) : EReal := ∑ q ∈ Finset.range N, contrib a e h j q

theorem latUpTo_zero : latUpTo a e h j 0 = 0 := Finset.sum_range_zero _

/-- Adding a block of 2000 nodes: the running sum grows by the block's own latent sum. -/
theorem latUpTo_block (n : ℕ) (hn : 2000 * n + 2000 ≤ 50000)
    (ab : Fin 2000 → Fin 256 → EReal) (eb : Fin 2000 → Fin 128 → EReal)
    (hab : ∀ r : Fin 2000, ab r h = a ⟨2000 * n + r.val, by have := r.isLt; omega⟩ h)
    (heb : ∀ r : Fin 2000, eb r j = e ⟨2000 * n + r.val, by have := r.isLt; omega⟩ j) :
    latUpTo a e h j (2000 * n + 2000) = latUpTo a e h j (2000 * n) + latent ab eb h j := by
  unfold latUpTo latent
  rw [Finset.sum_range_add, Finset.sum_range (fun x => contrib a e h j (2000 * n + x))]
  refine congrArg (_ + ·) (Finset.sum_congr rfl fun r _ => ?_)
  have hr : 2000 * n + r.val < 50000 := by have := r.isLt; omega
  unfold contrib
  rw [dif_pos hr, hab r, heb r]

/-- Over all 50000 nodes the running sum is the latent entry. -/
theorem latUpTo_all : latUpTo a e h j 50000 = latent a e h j := by
  unfold latUpTo latent
  rw [Finset.sum_range]
  refine Finset.sum_congr rfl fun q _ => ?_
  unfold contrib
  rw [dif_pos q.isLt]

end Cert.RowMath

end
-- ==== Proof.RegionA.lean ====
/-
  The first kernel's two result arrays, as whole-array functions of the arrays it is launched on.

  The grid has 25 points; point t works on rows 2000·t … 2000·t + 1999 of the feature and noise arrays and on
  the whole weight arrays. The embedding array's block t is written back at every point and holds the
  embedding rows of those nodes, so the blocks tile the array and it ends at the embedding of every node.
  The latent array's one block is carried from point to point and written back after the last: after point n
  it holds the latent sum over the first 2000·(n+1) nodes (induction on the point: the first point starts from
  the zero block, each later point adds its own 2000 nodes' sum to what it finds), hence all 50000 at the end.
-/
import proofs.«138085_j29712583754279_1_alg».proof.Proof.Pieces
import proofs.«138085_j29712583754279_1_alg».proof.Proof.LatentSum
import Idealize.ShloMosaic.Lib.Pipeline.Value

set_option maxRecDepth 16384

noncomputable section

open scoped BigOperators

namespace Cert.KernelIdeal.RegionA

open Cert.KernelIdeal Cert.KernelIdeal.Gen Cert.RowMath
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The five arrays the kernel reads, as the launch finds them. -/
abbrev X : S50000x384.Idx → EReal := V c main_arg0
abbrev U : S50000x256.Idx → EReal := V c main_arg2
abbrev Wf : S384x128.Idx → EReal := V c main_arg3
abbrev bf : S128.Idx → EReal := V c main_arg4
abbrev Wh : S128x256.Idx → EReal := V c main_arg5

/-- The printed block index maps over the grid: the row-blocked windows move with the point, the weights stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

theorem row_lt (t : Fin cfg0.N) (r : Fin 2000) : 2000 * t.val + r.val < 50000 := by
  have hN : cfg0.N = 25 := N_0
  have := t.isLt; have := r.isLt; omega

/-- Row r of the feature block at point t is row 2000·t + r of the feature array. -/
theorem rows0 (t : Fin cfg0.N) (r : Fin 2000) :
    mat (iblk0 V c 0 t : Vec Ideal S2000x384 .f32) r = mat (X V c) ⟨2000 * t.val + r.val, row_lt t r⟩ := by
  obtain ⟨e0, e1, -⟩ := idx_facts t
  funext k
  show V c main_arg0 (((cfg0.win 0).blk t).view.emb (ix2 r k)) = V c main_arg0 _
  refine congrArg _ (funext fun a => Fin.ext ?_)
  match a with
  | ⟨0, _⟩ => show win0_0.index t (0 : Fin 2) * 2000 + 1 * r.val = 2000 * t.val + r.val; omega
  | ⟨1, _⟩ => show win0_0.index t (1 : Fin 2) * 384 + 1 * k.val = k.val; omega

/-- Row r of the noise block at point t is row 2000·t + r of the noise array. -/
theorem rows1 (t : Fin cfg0.N) (r : Fin 2000) :
    mat (iblk0 V c 1 t : Vec Ideal S2000x256 .f32) r = mat (U V c) ⟨2000 * t.val + r.val, row_lt t r⟩ := by
  obtain ⟨-, -, e0, e1, -⟩ := idx_facts t
  funext k
  show V c main_arg2 (((cfg0.win 1).blk t).view.emb (ix2 r k)) = V c main_arg2 _
  refine congrArg _ (funext fun a => Fin.ext ?_)
  match a with
  | ⟨0, _⟩ => show win0_1.index t (0 : Fin 2) * 2000 + 1 * r.val = 2000 * t.val + r.val; omega
  | ⟨1, _⟩ => show win0_1.index t (1 : Fin 2) * 256 + 1 * k.val = k.val; omega

/-- The three weight windows' one block is the whole array. -/
theorem whole2 (t : Fin cfg0.N) : mat (iblk0 V c 2 t : Vec Ideal S384x128 .f32) = mat (Wf V c) := by
  obtain ⟨-, -, -, -, e0, e1, -⟩ := idx_facts t
  funext k j
  show V c main_arg3 (((cfg0.win 2).blk t).view.emb (ix2 k j)) = V c main_arg3 _
  refine congrArg _ (funext fun a => Fin.ext ?_)
  match a with
  | ⟨0, _⟩ => show win0_2.index t (0 : Fin 2) * 384 + 1 * k.val = k.val; omega
  | ⟨1, _⟩ => show win0_2.index t (1 : Fin 2) * 128 + 1 * j.val = j.val; omega

theorem whole3 (t : Fin cfg0.N) : vec (iblk0 V c 3 t : Vec Ideal S128 .f32) = vec (bf V c) := by
  obtain ⟨-, -, -, -, -, -, e0, -⟩ := idx_facts t
  funext j
  show V c main_arg4 (((cfg0.win 3).blk t).view.emb (ix1 j)) = V c main_arg4 _
  refine congrArg _ (funext fun a => Fin.ext ?_)
  match a with
  | ⟨0, _⟩ => show win0_3.index t (0 : Fin 1) * 128 + 1 * j.val = j.val; omega

theorem whole4 (t : Fin cfg0.N) : mat (iblk0 V c 4 t : Vec Ideal S128x256 .f32) = mat (Wh V c) := by
  obtain ⟨-, -, -, -, -, -, -, e0, e1, -⟩ := idx_facts t
  funext k j
  show V c main_arg5 (((cfg0.win 4).blk t).view.emb (ix2 k j)) = V c main_arg5 _
  refine congrArg _ (funext fun a => Fin.ext ?_)
  match a with
  | ⟨0, _⟩ => show win0_4.index t (0 : Fin 2) * 128 + 1 * k.val = k.val; omega
  | ⟨1, _⟩ => show win0_4.index t (1 : Fin 2) * 256 + 1 * j.val = j.val; omega

/-! ## What the body computes, as hypotheses on its pure terms

The three facts about the body's arithmetic read at an index are proved where the arithmetic is opened; here they
are used through their statements only. -/

/-- The three facts about the body's arithmetic, read at an index. -/
structure BodyFacts : Prop where
  H3 : ∀ (x0 : Vec Ideal S2000x384 .f32) (x2 : Vec Ideal S384x128 .f32) (x3 : Vec Ideal S128 .f32) (r : Fin 2000) (j : Fin 128),
    k0_pay3 (F := Ideal) x0 x2 x3 (ix2 r j) = rowAffine (mat x0 r) (mat x2) (vec x3) j
  Hacc : ∀ (x0 : Vec Ideal S2000x384 .f32) (x1 : Vec Ideal S2000x256 .f32) (x2 : Vec Ideal S384x128 .f32) (x3 : Vec Ideal S128 .f32)
      (x4 : Vec Ideal S128x256 .f32) (v44 : Vec Ideal S256x128 .f32) (h : Fin 256) (j : Fin 128),
    k0_pay1 (F := Ideal) (k0_pay3 x0 x2 x3) (k0_pay4 x0 x2 x3 x4 x1) v44 (ix2 h j)
      = v44 (ix2 h j) + latent (fun r : Fin 2000 => assignRow (rowAffine (mat x0 r) (mat x2) (vec x3)) (mat x4) (mat x1 r))
          (fun r : Fin 2000 => rowAffine (mat x0 r) (mat x2) (vec x3)) h j
  H2 : ∀ (h : Fin 256) (j : Fin 128), k0_pay2 (F := Ideal) (ix2 h j) = 0

section Arrays

/-- The embedding block a point stores, whichever control case it is in. -/
theorem emb_block (t : Fin cfg0.N) :
    (outsAt0 V c t.val t.isLt).1 = k0_pay3 (iblk0 V c 0 t) (iblk0 V c 2 t) (iblk0 V c 3 t) := by
  by_cases h0 : t.val % 25 = 0
  · rw [outsAt0_A V c t h0]
    dsimp only
    rw [Pieces.outA5 (F := Ideal)]
  · rw [outsAt0_B V c t h0]
    dsimp only
    rw [Pieces.outB5 (F := Ideal)]

/-- The accumulator a point stores: the update of the zero block at the first point, of what the point before left otherwise. -/
theorem acc_first (t : Fin cfg0.N) (h0 : t.val % 25 = 0) :
    (outsAt0 V c t.val t.isLt).2 = k0_pay1 (k0_pay3 (iblk0 V c 0 t) (iblk0 V c 2 t) (iblk0 V c 3 t))
      (k0_pay4 (iblk0 V c 0 t) (iblk0 V c 2 t) (iblk0 V c 3 t) (iblk0 V c 4 t) (iblk0 V c 1 t)) (k0_pay2 (F := Ideal)) := by
  rw [outsAt0_A V c t h0]
  dsimp only
  rw [Pieces.outA6 (F := Ideal)]

theorem acc_later (t : Fin cfg0.N) (h0 : ¬t.val % 25 = 0) :
    (outsAt0 V c t.val t.isLt).2 = k0_pay1 (k0_pay3 (iblk0 V c 0 t) (iblk0 V c 2 t) (iblk0 V c 3 t))
      (k0_pay4 (iblk0 V c 0 t) (iblk0 V c 2 t) (iblk0 V c 3 t) (iblk0 V c 4 t) (iblk0 V c 1 t))
      (outsAt0 V c (t.val - 1) (Nat.lt_of_le_of_lt (Nat.sub_le _ _) t.isLt)).2 := by
  rw [outsAt0_B V c t h0]
  dsimp only
  rw [Pieces.outB6 (F := Ideal)]

/-- Position (r, j) of the embedding window's block at point t is position (2000·t + r, j) of the array. -/
theorem emb5 (t : Fin cfg0.N) (r : Fin 2000) (j : Fin 128) :
    ((cfg0.win 5).blk t).view.emb (ix2 r j) = ix2 (⟨2000 * t.val + r.val, row_lt t r⟩ : Fin 50000) j := by
  obtain ⟨-, -, -, -, -, -, -, -, -, e0, e1, -⟩ := idx_facts t
  refine funext fun a => Fin.ext ?_
  match a with
  | ⟨0, _⟩ => show win0_5.index t (0 : Fin 2) * 2000 + 1 * r.val = 2000 * t.val + r.val; omega
  | ⟨1, _⟩ => show win0_5.index t (1 : Fin 2) * 128 + 1 * j.val = j.val; omega

/-- What point t writes back of the embedding window is block t of the embedding array. -/
theorem flushed5 (hb : BodyFacts) (t : Fin cfg0.N) :
    (dat0 V c).flushed 5 t = ((cfg0.win 5).blk t).view.read (Elt Ideal) (embArr (X V c) (Wf V c) (bf V c)) := by
  show (cfg0.win 5).cut (grid0.coords t) ((dat0 V c).after 5 t) = _
  rw [after0_5, emb_block]
  funext y
  obtain ⟨r, j, rfl⟩ : ∃ (r : Fin 2000) (j : Fin 128), y = ix2 r j := ⟨y 0, y 1, eq_ix2 y⟩
  show k0_pay3 (F := Ideal) (iblk0 V c 0 t) (iblk0 V c 2 t) (iblk0 V c 3 t) (ix2 r j)
    = embArr (X V c) (Wf V c) (bf V c) (((cfg0.win 5).blk t).view.emb (ix2 r j))
  refine (hb.H3 (iblk0 V c 0 t) (iblk0 V c 2 t) (iblk0 V c 3 t) r j).trans ?_
  rw [emb5, rows0, whole2, whole3]
  rfl

/-- An index of the embedding array is in point t's block iff its row is among the block's 2000. -/
theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v0_0).slice (win0_5.rect t)).set ↔ _
  rw [View.set_slice_whole, Rect.mem_set_unit]
  exact Iff.rfl

/-- The embedding array after the region: every node's embedding row. -/
theorem final5 (hb : BodyFacts) : (dat0 V c).arrAt 5 cfg0.N = embArr (X V c) (Wf V c) (bf V c) :=
  (dat0 V c).arrAt_eq_of_cover 5 _ (fun t _ => flushed5 V c hb t) fun i => by
    have hN : cfg0.N = 25 := N_0
    have hi0 : (i 0).val < 50000 := (i 0).isLt
    have hi1 : (i 1).val < 128 := (i 1).isLt
    let t : Fin cfg0.N := ⟨(i 0).val / 2000, by omega⟩
    obtain ⟨-, -, -, -, -, -, -, -, -, e0, e1, -⟩ := idx_facts t
    have ht : t.val = (i 0).val / 2000 := rfl
    refine ⟨t, flush0_5 t, ?_⟩
    rw [mem_blk5]
    intro a
    match a with
    | ⟨0, _⟩ => show win0_5.index t (0 : Fin 2) * 2000 ≤ (i 0).val ∧ (i 0).val < win0_5.index t (0 : Fin 2) * 2000 + 2000; omega
    | ⟨1, _⟩ => show win0_5.index t (1 : Fin 2) * 128 ≤ (i 1).val ∧ (i 1).val < win0_5.index t (1 : Fin 2) * 128 + 128; omega

/-! ### The latent array: a running sum over the points -/

/-- The embedding and assignment rows of all nodes, from the launch arrays. -/
abbrev E : Fin 50000 → Fin 128 → EReal := embRow (X V c) (Wf V c) (bf V c)
abbrev A : Fin 50000 → Fin 256 → EReal := asgRow (X V c) (U V c) (Wf V c) (bf V c) (Wh V c)

/-- The block's own latent sum at point t is the sum over nodes 2000·t … 2000·t + 1999. -/
theorem block_sum (n : ℕ) (hn : n < cfg0.N) (h : Fin 256) (j : Fin 128) :
    latUpTo (A V c) (E V c) h j (2000 * n + 2000)
      = latUpTo (A V c) (E V c) h j (2000 * n)
        + latent (fun r : Fin 2000 => assignRow (rowAffine (mat (iblk0 V c 0 ⟨n, hn⟩ : Vec Ideal S2000x384 .f32) r) (mat (iblk0 V c 2 ⟨n, hn⟩ : Vec Ideal S384x128 .f32)) (vec (iblk0 V c 3 ⟨n, hn⟩ : Vec Ideal S128 .f32)))
              (mat (iblk0 V c 4 ⟨n, hn⟩ : Vec Ideal S128x256 .f32)) (mat (iblk0 V c 1 ⟨n, hn⟩ : Vec Ideal S2000x256 .f32) r))
            (fun r : Fin 2000 => rowAffine (mat (iblk0 V c 0 ⟨n, hn⟩ : Vec Ideal S2000x384 .f32) r) (mat (iblk0 V c 2 ⟨n, hn⟩ : Vec Ideal S384x128 .f32)) (vec (iblk0 V c 3 ⟨n, hn⟩ : Vec Ideal S128 .f32))) h j := by
  have hN : cfg0.N = 25 := N_0
  refine latUpTo_block _ _ h j n (by omega) _ _ (fun r => ?_) (fun r => ?_)
  · rw [rows0, rows1, whole2, whole3, whole4]; rfl
  · rw [rows0, whole2, whole3]; rfl

/-- After point n the accumulator holds the latent sum over the first 2000·(n+1) nodes. -/
theorem acc_inv (hb : BodyFacts) : ∀ (n : ℕ) (hn : n < cfg0.N) (h : Fin 256) (j : Fin 128),
    (outsAt0 V c n hn).2 (ix2 h j) = latUpTo (A V c) (E V c) h j (2000 * n + 2000)
  | 0, hn, h, j => by
    rw [show (outsAt0 V c 0 hn).2 = _ from acc_first V c ⟨0, hn⟩ rfl]
    refine (hb.Hacc (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := Ideal)) h j).trans ?_
    rw [hb.H2, zero_add, block_sum V c 0 hn h j, latUpTo_zero, zero_add]
  | n + 1, hn, h, j => by
    have hN : cfg0.N = 25 := N_0
    have hB : ¬(⟨n + 1, hn⟩ : Fin cfg0.N).val % 25 = 0 := by dsimp only; omega
    rw [show (outsAt0 V c (n + 1) hn).2 = _ from acc_later V c ⟨n + 1, hn⟩ hB]
    refine (hb.Hacc (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ h j).trans ?_
    rw [block_sum V c (n + 1) hn h j]
    refine congrArg (· + _) ?_
    show (outsAt0 V c n _).2 (ix2 h j) = _
    rw [acc_inv hb n (Nat.lt_of_succ_lt hn) h j]
    exact congrArg _ (by ring)

set_option maxRecDepth 200000 in
/-- The one write-back of the latent window, after the last point, writes the latent array. -/
theorem flushed6 (hb : BodyFacts) (t : Fin cfg0.N) (hf : (cfg0.win 6).flush t = true) :
    (dat0 V c).flushed 6 t = ((cfg0.win 6).blk t).view.read (Elt Ideal) (latArr (X V c) (U V c) (Wf V c) (bf V c) (Wh V c)) := by
  have hN : cfg0.N = 25 := N_0
  have h24 : t.val = 24 := by have := (flush0_6 t).mp hf; have := t.isLt; omega
  obtain ⟨-, -, -, -, -, -, -, -, -, -, -, e0, e1⟩ := idx_facts t
  show (cfg0.win 6).cut (grid0.coords t) ((dat0 V c).after 6 t) = _
  rw [after0_6]
  funext y
  obtain ⟨h, j, rfl⟩ : ∃ (h : Fin 256) (j : Fin 128), y = ix2 h j := ⟨y 0, y 1, eq_ix2 y⟩
  have hemb : ((cfg0.win 6).blk t).view.emb (ix2 h j) = ix2 h j := by
    refine funext fun a => Fin.ext ?_
    match a with
    | ⟨0, _⟩ => show win0_6.index t (0 : Fin 2) * 256 + 1 * h.val = h.val; omega
    | ⟨1, _⟩ => show win0_6.index t (1 : Fin 2) * 128 + 1 * j.val = j.val; omega
  show (outsAt0 V c t.val t.isLt).2 (ix2 h j) = latArr _ _ _ _ _ (((cfg0.win 6).blk t).view.emb (ix2 h j))
  rw [hemb, acc_inv V c hb t.val t.isLt h j, show 2000 * t.val + 2000 = 50000 by omega, latUpTo_all]
  rfl

/-- The latent array after the region: the latent features over all nodes. -/
theorem final6 (hb : BodyFacts) : (dat0 V c).arrAt 6 cfg0.N = latArr (X V c) (U V c) (Wf V c) (bf V c) (Wh V c) :=
  (dat0 V c).arrAt_eq_of_cover 6 _ (flushed6 V c hb) fun i => by
    have hN : cfg0.N = 25 := N_0
    have hi0 : (i 0).val < 256 := (i 0).isLt
    have hi1 : (i 1).val < 128 := (i 1).isLt
    let t : Fin cfg0.N := ⟨24, by omega⟩
    obtain ⟨-, -, -, -, -, -, -, -, -, -, -, e0, e1⟩ := idx_facts t
    refine ⟨t, (flush0_6 t).mpr rfl, ?_⟩
    show i ∈ ((View.whole main_v0_1).slice (win0_6.rect t)).set
    rw [View.set_slice_whole, Rect.mem_set_unit]
    intro a
    match a with
    | ⟨0, _⟩ => show win0_6.index t (0 : Fin 2) * 256 ≤ (i 0).val ∧ (i 0).val < win0_6.index t (0 : Fin 2) * 256 + 256; omega
    | ⟨1, _⟩ => show win0_6.index t (1 : Fin 2) * 128 ≤ (i 1).val ∧ (i 1).val < win0_6.index t (1 : Fin 2) * 128 + 128; omega

end Arrays

end Cert.KernelIdeal.RegionA

end
-- ==== Proof.BodyB.lean ====
/-
  The second kernel's body, read at a row and a lane, over the extended reals.

  The body works on a block of 2000 rows. Every stage of it is a function of ONE row of the block (and of the
  whole weight matrices): the scores of a row are its embedding times the hyperedge weights plus Gumbel noise, over
  the temperature; the assignment is the softmax of the scores, shifted by the row's maximum; the message is the
  assignment times the latent features; the fused row adds 0.1 times the message, scaled by its floored Euclidean
  length, to the propagated embedding; the two projections are affine images of the fused row clipped below at zero.

  Each stage is named as a function of blocks, the body's payloads are compositions of the stages by unfolding, and each
  stage is read at (row, lane) as the row function of the shared specification: a lane reduction is a sum (or a
  fold of max) over the row's lanes, a column kept from a reduction and spread back over the lanes reads the row's
  value at every lane, a matrix product into the zero splat is the row times the matrix, a narrowing of the float
  format is the identity, and subtracting from the zero splat is negation.
-/
import proofs.«138085_j29712583754279_1_alg».proof.Proof.Gen.KernelIdeal.Frame
import proofs.«138085_j29712583754279_1_alg».proof.Proof.RowMath
import proofs.«138085_j29712583754279_1_alg».proof.Proof.LibPlainDot
import proofs.«138085_j29712583754279_1_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyB

open Idealize.ShloMosaic Idealize.ShloMosaic.ValueIdx Idealize.ShloMosaic.ColumnIdx Cert.RowMath

/-- The index a reduction over the 256 lanes of a 2000-row block inserts: row r, lane k. -/
theorem lift256 (r : Fin 2000) (k : Fin 256) : Gen.reduces_S2000x256_S2000.lift (ix1 r) k = ix2 r k :=
  funext fun a => Fin.ext (by match a with | ⟨0, _⟩ => rfl | ⟨1, _⟩ => rfl)

/-- The same over 128 lanes. -/
theorem lift128 (r : Fin 2000) (k : Fin 128) : Gen.reduces_S2000x128_S2000.lift (ix1 r) k = ix2 r k :=
  funext fun a => Fin.ext (by match a with | ⟨0, _⟩ => rfl | ⟨1, _⟩ => rfl)

/-- The zero offsets of a whole rank-2 block, as the constant function. -/
theorem zero2 : (![0, 0] : Fin 2 → Nat) = fun _ => 0 := by funext a; match a with | ⟨0, _⟩ => rfl | ⟨1, _⟩ => rfl
/-- The zero offset of a whole rank-1 block, as the constant function. -/
theorem zero1 : (![0] : Fin 1 → Nat) = fun _ => 0 := by funext a; match a with | ⟨0, _⟩ => rfl

/-! ## The stages of the body, as blocks -/

/-- The Gumbel noise of a block of uniform samples. -/
def noiseBlk (U : Vec Ideal S2000x256 .f32) : FVec Ideal S2000x256 .f32 :=
  subf (broadcast S2000x256 (Scalar.ofBits .f32 0x00000000#32))
    (log (addf (subf (broadcast S2000x256 (Scalar.ofBits .f32 0x00000000#32))
        (log (addf U (broadcast S2000x256 (Scalar.ofBits .f32 0x2EDBE6FF#32)))))
      (broadcast S2000x256 (Scalar.ofBits .f32 0x2EDBE6FF#32))))

/-- The block of embeddings times the hyperedge weights. -/
def logitBlk (E : Vec Ideal S2000x128 .f32) (W : Vec Ideal S128x256 .f32) : FVec Ideal S2000x256 .f32 :=
  matmul dot_S2000x128_S128x256_S2000x256_1_0_0_1_n_n none
    (truncf .bf16 (shapeCast S2000x128 E Gen.shapeCasts_S2000x128_S2000x128) Gen.bitsLt_bf16_f32)
    (truncf .bf16 W Gen.bitsLt_bf16_f32) (constant S2000x256 .f32 0x00000000#32)

/-- The tempered, noised scores. -/
def scoreBlk (E : Vec Ideal S2000x128 .f32) (W : Vec Ideal S128x256 .f32) (U : Vec Ideal S2000x256 .f32) :
    FVec Ideal S2000x256 .f32 :=
  divf (addf (logitBlk E W) (noiseBlk U)) (broadcast S2000x256 (Scalar.ofBits .f32 0x3F000000#32))

/-- Each row's maximum, spread back over the row's lanes. -/
def topBlk (Z : FVec Ideal S2000x256 .f32) : FVec Ideal S2000x256 .f32 :=
  broadcastTo S2000x256
    (shapeCast S2000x1
      (maximumf (broadcast S2000 (Scalar.ofBits .f32 0xFF800000#32))
        (multiReduction .maximumf [1] S2000 Z 0xFF800000#32 Gen.reduces_S2000x256_S2000 (.inl rfl) rfl))
      Gen.shapeCasts_S2000_S2000x1)
    Gen.broadcasts_S2000x1_S2000x256

/-- The exponentials of the scores shifted by their row's maximum. -/
def expBlk (Z : FVec Ideal S2000x256 .f32) : FVec Ideal S2000x256 .f32 := exp (subf Z (topBlk Z))

/-- Each row's sum, spread back over the row's lanes. -/
def sumBlk (X : FVec Ideal S2000x256 .f32) : FVec Ideal S2000x256 .f32 :=
  broadcastTo S2000x256
    (shapeCast S2000x1
      (multiReduction .add [1] S2000 X 0x00000000#32 Gen.reduces_S2000x256_S2000 (.inl rfl) rfl)
      Gen.shapeCasts_S2000_S2000x1)
    Gen.broadcasts_S2000x1_S2000x256

/-- The softmax of each row of scores. -/
def softBlk (Z : FVec Ideal S2000x256 .f32) : FVec Ideal S2000x256 .f32 := divf (expBlk Z) (sumBlk (expBlk Z))

/-- The block of assignments times the latent features. -/
def hyperBlk (A : FVec Ideal S2000x256 .f32) (L : Vec Ideal S256x128 .f32) : FVec Ideal S2000x128 .f32 :=
  matmul dot_S2000x256_S256x128_S2000x128_1_0_0_1_n_n none
    (truncf .bf16 A Gen.bitsLt_bf16_f32)
    (truncf .bf16 (shapeCast S256x128 L Gen.shapeCasts_S256x128_S256x128) Gen.bitsLt_bf16_f32)
    (constant S2000x128 .f32 0x00000000#32)

/-- Each row's Euclidean length, as a column. -/
def lenBlk (H : FVec Ideal S2000x128 .f32) : FVec Ideal S2000x1 .f32 :=
  sqrt (shapeCast S2000x1
    (multiReduction .add [1] S2000 (mulf H H) 0x00000000#32 Gen.reduces_S2000x128_S2000 (.inl rfl) rfl)
    Gen.shapeCasts_S2000_S2000x1)

variable (x0 : Vec Ideal S2000x128 .f32) (x1 : Vec Ideal S2000x256 .f32) (x2 : Vec Ideal S2000x128 .f32)
  (x3 : Vec Ideal S128x256 .f32) (x4 : Vec Ideal S256x128 .f32) (x5 : Vec Ideal S128x128 .f32) (x6 : Vec Ideal S128 .f32)
  (x7 : Vec Ideal S128x128 .f32) (x8 : Vec Ideal S128 .f32)

/-- The body's message payload is the composition of the stages. -/
theorem pay4_eq : Gen.k1_pay4 (F := Ideal) x0 x3 x1 x4 = hyperBlk (softBlk (scoreBlk x0 x3 x1)) x4 := rfl

/-- The body's length payload is the length stage of the message payload. -/
theorem pay5_eq : Gen.k1_pay5 (F := Ideal) x0 x3 x1 x4 = lenBlk (Gen.k1_pay4 (F := Ideal) x0 x3 x1 x4) := rfl

/-! ## Each stage read at a row and a lane -/

section Stages
variable (r : Fin 2000)

/-- The noise stage is the Gumbel transform of the sample, lane by lane (subtracting from the zero splat is negation). -/
theorem noiseBlk_apply (U : Vec Ideal S2000x256 .f32) (h : Fin 256) : noiseBlk U (ix2 r h) = gumbel (U (ix2 r h)) := by
  show Ideal.ofBits .f32 0x00000000#32 - Ideal.log ((Ideal.ofBits .f32 0x00000000#32 - Ideal.log (U (ix2 r h) + eps)) + eps)
    = -Ideal.log (-Ideal.log (U (ix2 r h) + eps) + eps)
  rw [Ideal.ofBits_zero_f32, zero_sub, zero_sub]

/-- The product with the hyperedge weights, at row r and lane h: the row of embeddings times the matrix. -/
theorem logitBlk_apply (E : Vec Ideal S2000x128 .f32) (W : Vec Ideal S128x256 .f32) (h : Fin 256) :
    logitBlk E W (ix2 r h) = rowTimes (mat E r) (mat W) h := by
  refine (PlainDot.matmul_zero_apply (M := 2000) (K := 128) (N := 256) none _ _ r h).trans ?_
  show ∑ k : Fin 128, shapeCast S2000x128 E Gen.shapeCasts_S2000x128_S2000x128 (ix2 r k) * W (ix2 k h)
    = ∑ k : Fin 128, E (ix2 r k) * W (ix2 k h)
  rw [shapeCast_self]

/-- The scores at row r are the row's scores. -/
theorem scoreBlk_apply (E : Vec Ideal S2000x128 .f32) (W : Vec Ideal S128x256 .f32) (U : Vec Ideal S2000x256 .f32) (h : Fin 256) :
    scoreBlk E W U (ix2 r h) = scoreRow (mat E r) (mat W) (mat U r) h := by
  show Ideal.div (logitBlk E W (ix2 r h) + noiseBlk U (ix2 r h)) half = _
  rw [logitBlk_apply, noiseBlk_apply]
  rfl

/-- The maximum stage at row r, any lane, is the row's maximum. -/
theorem topBlk_apply (Z : FVec Ideal S2000x256 .f32) (h : Fin 256) : topBlk Z (ix2 r h) = rowTop (mat Z r) := by
  refine (broadcastTo_a1_ab_apply _ _ r h).trans ?_
  refine (shapeCast_a_a1_apply _ _ r 0).trans ?_
  refine (maximumf_apply _ _ (ix1 r)).trans ?_
  show _ = max negInf ((Finset.univ : Finset (Fin 256)).fold max negInf (mat Z r))
  refine congrArg₂ max rfl ?_
  refine (Ideal.multiReduction_maximumf_single Z _ Gen.reduces_S2000x256_S2000 (.inl rfl) rfl (ix1 r)).trans ?_
  have e : (Z ∘ Gen.reduces_S2000x256_S2000.lift (ix1 r)) = mat Z r := funext fun k => congrArg Z (lift256 r k)
  exact congrArg (fun f => (Finset.univ : Finset (Fin 256)).fold max negInf f) e

/-- The exponential stage at row r is the row's shifted exponentials. -/
theorem expBlk_apply (Z : FVec Ideal S2000x256 .f32) (h : Fin 256) : expBlk Z (ix2 r h) = expShift (mat Z r) h := by
  show Ideal.exp (Z (ix2 r h) - topBlk Z (ix2 r h)) = Ideal.exp (Z (ix2 r h) - rowTop (mat Z r))
  rw [topBlk_apply]

/-- The sum stage at row r, any lane, is the sum of the row. -/
theorem sumBlk_apply (X : FVec Ideal S2000x256 .f32) (h : Fin 256) : sumBlk X (ix2 r h) = ∑ h' : Fin 256, X (ix2 r h') := by
  refine (broadcastTo_a1_ab_apply _ _ r h).trans ?_
  refine (shapeCast_a_a1_apply _ _ r 0).trans ?_
  refine (Ideal.multiReduction_add_single X _ Gen.reduces_S2000x256_S2000 (.inl rfl) rfl (ix1 r)).trans ?_
  exact Finset.sum_congr rfl fun k _ => congrArg X (lift256 r k)

/-- The softmax stage at row r is the row's softmax. -/
theorem softBlk_apply (Z : FVec Ideal S2000x256 .f32) (h : Fin 256) : softBlk Z (ix2 r h) = softRow (mat Z r) h := by
  show Ideal.div (expBlk Z (ix2 r h)) (sumBlk (expBlk Z) (ix2 r h)) = Ideal.div (expShift (mat Z r) h) (∑ h' : Fin 256, expShift (mat Z r) h')
  rw [sumBlk_apply, expBlk_apply]
  exact congrArg (Ideal.div _) (Finset.sum_congr rfl fun k _ => expBlk_apply r Z k)

/-- The product with the latent features, at row r and lane j: the row of assignments times the matrix. -/
theorem hyperBlk_apply (A : FVec Ideal S2000x256 .f32) (L : Vec Ideal S256x128 .f32) (j : Fin 128) :
    hyperBlk A L (ix2 r j) = rowTimes (mat A r) (mat L) j := by
  refine (PlainDot.matmul_zero_apply (M := 2000) (K := 256) (N := 128) none _ _ r j).trans ?_
  show ∑ k : Fin 256, A (ix2 r k) * shapeCast S256x128 L Gen.shapeCasts_S256x128_S256x128 (ix2 k j)
    = ∑ k : Fin 256, A (ix2 r k) * L (ix2 k j)
  rw [shapeCast_self]

/-- The length stage at row r: the square root of the row's sum of squares. -/
theorem lenBlk_apply (H : FVec Ideal S2000x128 .f32) (u : Fin 1) :
    lenBlk H (ix2 r u) = Ideal.sqrt (∑ j : Fin 128, H (ix2 r j) * H (ix2 r j)) := by
  show Ideal.sqrt (shapeCast S2000x1 (multiReduction (F := Ideal) .add [1] S2000 (mulf H H) 0x00000000#32 Gen.reduces_S2000x128_S2000 (.inl rfl) rfl)
    Gen.shapeCasts_S2000_S2000x1 (ix2 r u)) = _
  refine congrArg Ideal.sqrt ?_
  refine (shapeCast_a_a1_apply _ _ r u).trans ?_
  refine (Ideal.multiReduction_add_single (mulf H H) _ Gen.reduces_S2000x128_S2000 (.inl rfl) rfl (ix1 r)).trans ?_
  exact Finset.sum_congr rfl fun k _ => congrArg (mulf H H) (lift128 r k)

end Stages

/-- An affine image of a block clipped below at zero: the two projections' stage. -/
def clipBlk (P : FVec Ideal S2000x128 .f32) (W : Vec Ideal S128x128 .f32) (b : Vec Ideal S128 .f32) : FVec Ideal S2000x128 .f32 :=
  maximumf
    (addf
      (matmul dot_S2000x128_S128x128_S2000x128_1_0_0_1_n_n none (truncf .bf16 P Gen.bitsLt_bf16_f32)
        (truncf .bf16 W Gen.bitsLt_bf16_f32) (constant S2000x128 .f32 0x00000000#32))
      (broadcastTo S2000x128 (shapeCast S1x128 b Gen.shapeCasts_S128_S1x128) Gen.broadcasts_S1x128_S2000x128))
    (broadcast S2000x128 (Scalar.ofBits .f32 0x00000000#32))

/-- The projection stage at row r and lane j: the row's affine image, clipped. -/
theorem clipBlk_apply (P : FVec Ideal S2000x128 .f32) (W : Vec Ideal S128x128 .f32) (b : Vec Ideal S128 .f32)
    (r : Fin 2000) (j : Fin 128) : clipBlk P W b (ix2 r j) = clipAffine (mat P r) (mat W) (vec b) j := by
  show max (matmul (F := Ideal) dot_S2000x128_S128x128_S2000x128_1_0_0_1_n_n none (truncf .bf16 P Gen.bitsLt_bf16_f32)
        (truncf .bf16 W Gen.bitsLt_bf16_f32) (constant S2000x128 .f32 0x00000000#32) (ix2 r j)
      + broadcastTo S2000x128 (shapeCast S1x128 b Gen.shapeCasts_S128_S1x128) Gen.broadcasts_S1x128_S2000x128 (ix2 r j)) zeroW
    = max (rowTimes (mat P r) (mat W) j + vec b j) zeroW
  refine congrArg (fun t => max t zeroW) ?_
  refine congrArg₂ (· + ·) ?_ ?_
  · exact PlainDot.matmul_zero_apply (M := 2000) (K := 128) (N := 128) none _ _ r j
  · refine (broadcastTo_1b_ab_apply _ _ r j).trans ?_
    exact shapeCast_a_1a_apply _ _ 0 j

variable (r : Fin 2000) (j : Fin 128)

/-- The fusing payload at row r and lane j, over any message block H, length column L and embedding block X. -/
theorem pay1_apply (H : FVec Ideal S2000x128 .f32) (L : FVec Ideal S2000x1 .f32) (X : Vec Ideal S2000x128 .f32) :
    Gen.k1_pay1 (F := Ideal) H L X (ix2 r j)
      = X (ix2 r j) + tenth * Ideal.div (H (ix2 r j)) (max (L (ix2 r (0 : Fin 1))) floorLen) := by
  unfold Gen.k1_pay1
  show shapeCast S2000x128 X Gen.shapeCasts_S2000x128_S2000x128 (ix2 r j)
      + tenth * Ideal.div (H (ix2 r j))
          (broadcastTo S2000x128 (maximumf L (broadcast S2000x1 (Scalar.ofBits .f32 0x2B8CBCCC#32))) Gen.broadcasts_S2000x1_S2000x128 (ix2 r j))
    = _
  rw [shapeCast_self, broadcastTo_a1_ab_apply]
  rfl

/-- The first projection payload is the projection stage of the fusing payload. -/
theorem pay2_eq (H : FVec Ideal S2000x128 .f32) (L : FVec Ideal S2000x1 .f32) (X : Vec Ideal S2000x128 .f32)
    (W : Vec Ideal S128x128 .f32) (b : Vec Ideal S128 .f32) :
    Gen.k1_pay2 (F := Ideal) H L X W b = clipBlk (Gen.k1_pay1 (F := Ideal) H L X) W b := rfl
/-- Likewise the second projection payload. -/
theorem pay3_eq (H : FVec Ideal S2000x128 .f32) (L : FVec Ideal S2000x1 .f32) (X : Vec Ideal S2000x128 .f32)
    (W : Vec Ideal S128x128 .f32) (b : Vec Ideal S128 .f32) :
    Gen.k1_pay3 (F := Ideal) H L X W b = clipBlk (Gen.k1_pay1 (F := Ideal) H L X) W b := rfl

/-- Row r of the scores block is the row's scores. -/
theorem score_row : mat (scoreBlk x0 x3 x1) r = scoreRow (mat x0 r) (mat x3) (mat x1 r) :=
  funext fun h => scoreBlk_apply r x0 x3 x1 h

/-- Row r of the assignment block is the row's assignment. -/
theorem assign_row : mat (softBlk (scoreBlk x0 x3 x1)) r = assignRow (mat x0 r) (mat x3) (mat x1 r) := by
  funext h
  show softBlk (scoreBlk x0 x3 x1) (ix2 r h) = softRow (scoreRow (mat x0 r) (mat x3) (mat x1 r)) h
  rw [softBlk_apply, score_row]

/-- The message payload at row r and lane j. -/
theorem pay4_apply : Gen.k1_pay4 (F := Ideal) x0 x3 x1 x4 (ix2 r j)
    = rowTimes (assignRow (mat x0 r) (mat x3) (mat x1 r)) (mat x4) j := by
  rw [pay4_eq, hyperBlk_apply, assign_row]

/-- The length payload at row r. -/
theorem pay5_apply (u : Fin 1) : Gen.k1_pay5 (F := Ideal) x0 x3 x1 x4 (ix2 r u)
    = Ideal.sqrt (∑ q : Fin 128, rowTimes (assignRow (mat x0 r) (mat x3) (mat x1 r)) (mat x4) q
        * rowTimes (assignRow (mat x0 r) (mat x3) (mat x1 r)) (mat x4) q) := by
  rw [pay5_eq, lenBlk_apply]
  exact congrArg Ideal.sqrt (Finset.sum_congr rfl fun q _ => by rw [pay4_apply])

/-- The fused block at row r and lane j is the row's fused row. -/
theorem fused_apply :
    Gen.k1_pay1 (F := Ideal) (Gen.k1_pay4 x0 x3 x1 x4) (Gen.k1_pay5 x0 x3 x1 x4) x2 (ix2 r j)
      = fuseRow (mat x2 r) (rowTimes (assignRow (mat x0 r) (mat x3) (mat x1 r)) (mat x4)) j := by
  rw [pay1_apply, pay4_apply, pay5_apply]
  rfl

/-- Row r of the fused block. -/
theorem fused_row :
    mat (Gen.k1_pay1 (F := Ideal) (Gen.k1_pay4 x0 x3 x1 x4) (Gen.k1_pay5 x0 x3 x1 x4) x2) r
      = fuseRow (mat x2 r) (rowTimes (assignRow (mat x0 r) (mat x3) (mat x1 r)) (mat x4)) :=
  funext fun q => fused_apply x0 x1 x2 x3 x4 r q

/-! ## What the body leaves in its three output windows, at a row and a lane -/

/-- Window 9: the fused row. -/
theorem out9_apply : Gen.out1_9 (F := Ideal) x0 x1 x2 x3 x4 x5 x6 x7 x8 (ix2 r j)
    = fuseRow (mat x2 r) (rowTimes (assignRow (mat x0 r) (mat x3) (mat x1 r)) (mat x4)) j := by
  unfold Gen.out1_9
  rw [View.canon_unit_zero zero2]
  simp only [View.ld_unit_zero (S := S2000x128) zero2, View.ld_unit_zero (S := S128x256) zero2,
    View.ld_unit_zero (S := S2000x256) zero2, View.ld_unit_zero (S := S256x128) zero2]
  exact fused_apply x0 x1 x2 x3 x4 r j

/-- Window 10: the first clipped affine image of the fused row. -/
theorem out10_apply : Gen.out1_10 (F := Ideal) x0 x1 x2 x3 x4 x5 x6 x7 x8 (ix2 r j)
    = clipAffine (fuseRow (mat x2 r) (rowTimes (assignRow (mat x0 r) (mat x3) (mat x1 r)) (mat x4))) (mat x5) (vec x6) j := by
  unfold Gen.out1_10
  rw [View.canon_unit_zero zero2]
  simp only [View.ld_unit_zero (S := S2000x128) zero2, View.ld_unit_zero (S := S128x256) zero2,
    View.ld_unit_zero (S := S2000x256) zero2, View.ld_unit_zero (S := S256x128) zero2,
    View.ld_unit_zero (S := S128x128) zero2, View.ld_unit_zero (S := S128) zero1]
  rw [pay2_eq, clipBlk_apply, fused_row]

/-- Window 11: the second clipped affine image of the fused row. -/
theorem out11_apply : Gen.out1_11 (F := Ideal) x0 x1 x2 x3 x4 x5 x6 x7 x8 (ix2 r j)
    = clipAffine (fuseRow (mat x2 r) (rowTimes (assignRow (mat x0 r) (mat x3) (mat x1 r)) (mat x4))) (mat x7) (vec x8) j := by
  unfold Gen.out1_11
  rw [View.canon_unit_zero zero2]
  simp only [View.ld_unit_zero (S := S2000x128) zero2, View.ld_unit_zero (S := S128x256) zero2,
    View.ld_unit_zero (S := S2000x256) zero2, View.ld_unit_zero (S := S256x128) zero2,
    View.ld_unit_zero (S := S128x128) zero2, View.ld_unit_zero (S := S128) zero1]
  rw [pay3_eq, clipBlk_apply, fused_row]

end Cert.KernelIdeal.BodyB

end
-- ==== Proof.RegionB.lean ====
/-
  The second kernel's three result arrays, as whole-array functions of the arrays it is launched on.

  The grid has 25 points; point t works on rows 2000·t … 2000·t + 1999 of the embedding, noise and propagated
  arrays and on the whole of the weight, latent and bias arrays. Row r of a row-blocked array's block at point t
  is row 2000·t + r of the array, and every stage of the body is a function of one row, so what point t writes
  back into block t of each result is the row function of the rows 2000·t + r of the arrays: block t of ONE
  function of the whole arrays. The 25 blocks tile the 50000 rows (row n lies in block n / 2000) and every point
  writes its block back, so each result array ends holding that function everywhere.
-/
import proofs.«138085_j29712583754279_1_alg».proof.Proof.BodyB
import proofs.«138085_j29712583754279_1_alg».proof.Proof.RowMath
import Idealize.ShloMosaic.Lib.Pipeline.Value

set_option maxRecDepth 16384

noncomputable section

open scoped BigOperators

namespace Cert.KernelIdeal.RegionB

open Cert.KernelIdeal Cert.KernelIdeal.Gen Cert.RowMath
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The nine arrays the kernel reads, as the launch finds them: the embeddings, the uniform samples, the propagated
    embeddings (row-blocked), the hyperedge weights, the latent features, and the two projections' weights and biases. -/
abbrev Emb : S50000x128.Idx → EReal := V c main_v0_0
abbrev Un : S50000x256.Idx → EReal := V c main_arg2
abbrev Loc : S50000x128.Idx → EReal := V c main_v75
abbrev Wh : S128x256.Idx → EReal := V c main_arg5
abbrev Lat : S256x128.Idx → EReal := V c main_v0_1
abbrev Wv : S128x128.Idx → EReal := V c main_arg6
abbrev bv : S128.Idx → EReal := V c main_arg7
abbrev Wt : S128x128.Idx → EReal := V c main_arg8
abbrev bt : S128.Idx → EReal := V c main_arg9

/-- The fused array: row n is the fused row of node n. -/
def fusedOf : S50000x128.Idx → EReal := fun i =>
  fuseRow (mat (Loc V c) (i 0)) (rowTimes (assignRow (mat (Emb V c) (i 0)) (mat (Wh V c)) (mat (Un V c) (i 0))) (mat (Lat V c))) (i 1)

/-- A projection array: row n is the clipped affine image of node n's fused row. -/
def projOf (W : S128x128.Idx → EReal) (b : S128.Idx → EReal) : S50000x128.Idx → EReal := fun i =>
  clipAffine (fuseRow (mat (Loc V c) (i 0)) (rowTimes (assignRow (mat (Emb V c) (i 0)) (mat (Wh V c)) (mat (Un V c) (i 0))) (mat (Lat V c))))
    (mat W) (vec b) (i 1)

/-! ## The block index maps over the grid -/

/-- The three row-blocked inputs move with the point. -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The six whole-array inputs stay. -/
theorem idx_whole : ∀ t : Fin cfg1.N, win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- The three row-blocked results move with the point. -/
theorem idx_out : ∀ t : Fin cfg1.N, win1_9.index t (0 : Fin 2) = t.val ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0 :=
  (by decide +kernel : ∀ t : Fin grid1.N, _)

/-- Row r of block t is a row of the array. -/
theorem row_lt (t : Fin cfg1.N) (r : Fin 2000) : 2000 * t.val + r.val < 50000 := by
  have hN : cfg1.N = 25 := N_1
  have := t.isLt; have := r.isLt; omega

/-! ## The input blocks at point t, row by row -/

/-- Row r of the embedding block at point t is row 2000·t + r of the embedding array. -/
theorem rows0 (t : Fin cfg1.N) (r : Fin 2000) :
    mat (iblk1 V c 0 t : Vec Ideal S2000x128 .f32) r = mat (Emb V c) ⟨2000 * t.val + r.val, row_lt t r⟩ := by
  obtain ⟨e0, e1, -⟩ := idx_rows t
  funext k
  show V c main_v0_0 (((cfg1.win 0).blk t).view.emb (ix2 r k)) = V c main_v0_0 _
  refine congrArg _ (funext fun a => Fin.ext ?_)
  match a with
  | ⟨0, _⟩ => show win1_0.index t (0 : Fin 2) * 2000 + 1 * r.val = 2000 * t.val + r.val; omega
  | ⟨1, _⟩ => show win1_0.index t (1 : Fin 2) * 128 + 1 * k.val = k.val; omega

/-- Row r of the noise block at point t is row 2000·t + r of the noise array. -/
theorem rows1 (t : Fin cfg1.N) (r : Fin 2000) :
    mat (iblk1 V c 1 t : Vec Ideal S2000x256 .f32) r = mat (Un V c) ⟨2000 * t.val + r.val, row_lt t r⟩ := by
  obtain ⟨-, -, e0, e1, -⟩ := idx_rows t
  funext k
  show V c main_arg2 (((cfg1.win 1).blk t).view.emb (ix2 r k)) = V c main_arg2 _
  refine congrArg _ (funext fun a => Fin.ext ?_)
  match a with
  | ⟨0, _⟩ => show win1_1.index t (0 : Fin 2) * 2000 + 1 * r.val = 2000 * t.val + r.val; omega
  | ⟨1, _⟩ => show win1_1.index t (1 : Fin 2) * 256 + 1 * k.val = k.val; omega

/-- Row r of the propagated block at point t is row 2000·t + r of the propagated array. -/
theorem rows2 (t : Fin cfg1.N) (r : Fin 2000) :
    mat (iblk1 V c 2 t : Vec Ideal S2000x128 .f32) r = mat (Loc V c) ⟨2000 * t.val + r.val, row_lt t r⟩ := by
  obtain ⟨-, -, -, -, e0, e1⟩ := idx_rows t
  funext k
  show V c main_v75 (((cfg1.win 2).blk t).view.emb (ix2 r k)) = V c main_v75 _
  refine congrArg _ (funext fun a => Fin.ext ?_)
  match a with
  | ⟨0, _⟩ => show win1_2.index t (0 : Fin 2) * 2000 + 1 * r.val = 2000 * t.val + r.val; omega
  | ⟨1, _⟩ => show win1_2.index t (1 : Fin 2) * 128 + 1 * k.val = k.val; omega

/-- The six whole-array windows' one block is the whole array. -/
theorem whole3 (t : Fin cfg1.N) : mat (iblk1 V c 3 t : Vec Ideal S128x256 .f32) = mat (Wh V c) := by
  obtain ⟨e0, e1, -⟩ := idx_whole t
  funext k j
  show V c main_arg5 (((cfg1.win 3).blk t).view.emb (ix2 k j)) = V c main_arg5 _
  refine congrArg _ (funext fun a => Fin.ext ?_)
  match a with
  | ⟨0, _⟩ => show win1_3.index t (0 : Fin 2) * 128 + 1 * k.val = k.val; omega
  | ⟨1, _⟩ => show win1_3.index t (1 : Fin 2) * 256 + 1 * j.val = j.val; omega

theorem whole4 (t : Fin cfg1.N) : mat (iblk1 V c 4 t : Vec Ideal S256x128 .f32) = mat (Lat V c) := by
  obtain ⟨-, -, e0, e1, -⟩ := idx_whole t
  funext k j
  show V c main_v0_1 (((cfg1.win 4).blk t).view.emb (ix2 k j)) = V c main_v0_1 _
  refine congrArg _ (funext fun a => Fin.ext ?_)
  match a with
  | ⟨0, _⟩ => show win1_4.index t (0 : Fin 2) * 256 + 1 * k.val = k.val; omega
  | ⟨1, _⟩ => show win1_4.index t (1 : Fin 2) * 128 + 1 * j.val = j.val; omega

theorem whole5 (t : Fin cfg1.N) : mat (iblk1 V c 5 t : Vec Ideal S128x128 .f32) = mat (Wv V c) := by
  obtain ⟨-, -, -, -, e0, e1, -⟩ := idx_whole t
  funext k j
  show V c main_arg6 (((cfg1.win 5).blk t).view.emb (ix2 k j)) = V c main_arg6 _
  refine congrArg _ (funext fun a => Fin.ext ?_)
  match a with
  | ⟨0, _⟩ => show win1_5.index t (0 : Fin 2) * 128 + 1 * k.val = k.val; omega
  | ⟨1, _⟩ => show win1_5.index t (1 : Fin 2) * 128 + 1 * j.val = j.val; omega

theorem whole6 (t : Fin cfg1.N) : vec (iblk1 V c 6 t : Vec Ideal S128 .f32) = vec (bv V c) := by
  obtain ⟨-, -, -, -, -, -, e0, -⟩ := idx_whole t
  funext j
  show V c main_arg7 (((cfg1.win 6).blk t).view.emb (ix1 j)) = V c main_arg7 _
  refine congrArg _ (funext fun a => Fin.ext ?_)
  match a with
  | ⟨0, _⟩ => show win1_6.index t (0 : Fin 1) * 128 + 1 * j.val = j.val; omega

theorem whole7 (t : Fin cfg1.N) : mat (iblk1 V c 7 t : Vec Ideal S128x128 .f32) = mat (Wt V c) := by
  obtain ⟨-, -, -, -, -, -, -, e0, e1, -⟩ := idx_whole t
  funext k j
  show V c main_arg8 (((cfg1.win 7).blk t).view.emb (ix2 k j)) = V c main_arg8 _
  refine congrArg _ (funext fun a => Fin.ext ?_)
  match a with
  | ⟨0, _⟩ => show win1_7.index t (0 : Fin 2) * 128 + 1 * k.val = k.val; omega
  | ⟨1, _⟩ => show win1_7.index t (1 : Fin 2) * 128 + 1 * j.val = j.val; omega

theorem whole8 (t : Fin cfg1.N) : vec (iblk1 V c 8 t : Vec Ideal S128 .f32) = vec (bt V c) := by
  obtain ⟨-, -, -, -, -, -, -, -, -, e0⟩ := idx_whole t
  funext j
  show V c main_arg9 (((cfg1.win 8).blk t).view.emb (ix1 j)) = V c main_arg9 _
  refine congrArg _ (funext fun a => Fin.ext ?_)
  match a with
  | ⟨0, _⟩ => show win1_8.index t (0 : Fin 1) * 128 + 1 * j.val = j.val; omega

/-! ## Window 9: the fused array -/

/-- An element of result block t of window 9 sits at row 2000·t + r, lane j of the array. -/
theorem emb9 (t : Fin cfg1.N) (r : Fin 2000) (j : Fin 128) :
    ((cfg1.win 9).blk t).view.emb (ix2 r j) = ix2 (⟨2000 * t.val + r.val, row_lt t r⟩ : Fin 50000) j := by
  obtain ⟨e0, e1, -⟩ := idx_out t
  refine funext fun a => Fin.ext ?_
  match a with
  | ⟨0, _⟩ => show win1_9.index t (0 : Fin 2) * 2000 + 1 * r.val = 2000 * t.val + r.val; omega
  | ⟨1, _⟩ => show win1_9.index t (1 : Fin 2) * 128 + 1 * j.val = j.val; omega

/-- What point t writes back into window 9 is block t of the fused array. -/
theorem flushed9_eq (t : Fin cfg1.N) :
    (dat1 V c).flushed 9 t = ((cfg1.win 9).blk t).view.read (Elt Ideal) (fusedOf V c) := by
  show (cfg1.win 9).cut (grid1.coords t) ((dat1 V c).after 9 t) = _
  rw [after1_9]
  funext y
  obtain ⟨r, j, rfl⟩ : ∃ (r : Fin 2000) (j : Fin 128), y = ix2 r j := ⟨y 0, y 1, eq_ix2 y⟩
  show out1_9 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 r j)
    = (fusedOf V c) (((cfg1.win 9).blk t).view.emb (ix2 r j))
  rw [emb9, BodyB.out9_apply, rows0, rows1, rows2, whole3, whole4]
  rfl

/-- An index of the array is in point t's block of window 9 iff each coordinate is in the block's range on its axis. -/
theorem mem_blk9 (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v76_0).slice (win1_9.rect t)).set ↔ _
  rw [View.set_slice_whole, Rect.mem_set_unit]
  exact Iff.rfl

/-- Every index of the array is in the block of the point its row falls in, and that point writes back. -/
theorem cover9 (i : S50000x128.Idx) :
    ∃ t : Fin cfg1.N, (cfg1.win 9).flush t = true ∧ i ∈ ((cfg1.win 9).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by omega⟩, rfl⟩
  obtain ⟨e0, e1, -⟩ := idx_out t
  refine ⟨t, flush1_9 t, ?_⟩
  rw [mem_blk9]
  intro a
  match a with
  | ⟨0, _⟩ =>
    show win1_9.index t (0 : Fin 2) * 2000 ≤ (i 0).val ∧ (i 0).val < win1_9.index t (0 : Fin 2) * 2000 + 2000
    omega
  | ⟨1, _⟩ =>
    show win1_9.index t (1 : Fin 2) * 128 ≤ (i 1).val ∧ (i 1).val < win1_9.index t (1 : Fin 2) * 128 + 128
    omega

/-- The first result array ends holding the fused rows. -/
theorem final9 : (dat1 V c).arrAt 9 cfg1.N = fusedOf V c :=
  (dat1 V c).arrAt_eq_of_cover 9 (fusedOf V c) (fun t _ => flushed9_eq V c t) (cover9)

/-! ## Window 10: the first projection -/

/-- An element of result block t of window 10 sits at row 2000·t + r, lane j of the array. -/
theorem emb10 (t : Fin cfg1.N) (r : Fin 2000) (j : Fin 128) :
    ((cfg1.win 10).blk t).view.emb (ix2 r j) = ix2 (⟨2000 * t.val + r.val, row_lt t r⟩ : Fin 50000) j := by
  obtain ⟨-, -, e0, e1, -⟩ := idx_out t
  refine funext fun a => Fin.ext ?_
  match a with
  | ⟨0, _⟩ => show win1_10.index t (0 : Fin 2) * 2000 + 1 * r.val = 2000 * t.val + r.val; omega
  | ⟨1, _⟩ => show win1_10.index t (1 : Fin 2) * 128 + 1 * j.val = j.val; omega

/-- What point t writes back into window 10 is block t of the first projection array. -/
theorem flushed10_eq (t : Fin cfg1.N) :
    (dat1 V c).flushed 10 t = ((cfg1.win 10).blk t).view.read (Elt Ideal) (projOf V c (Wv V c) (bv V c)) := by
  show (cfg1.win 10).cut (grid1.coords t) ((dat1 V c).after 10 t) = _
  rw [after1_10]
  funext y
  obtain ⟨r, j, rfl⟩ : ∃ (r : Fin 2000) (j : Fin 128), y = ix2 r j := ⟨y 0, y 1, eq_ix2 y⟩
  show out1_10 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 r j)
    = (projOf V c (Wv V c) (bv V c)) (((cfg1.win 10).blk t).view.emb (ix2 r j))
  rw [emb10, BodyB.out10_apply, rows0, rows1, rows2, whole3, whole4, whole5, whole6]
  rfl

/-- An index of the array is in point t's block of window 10 iff each coordinate is in the block's range on its axis. -/
theorem mem_blk10 (t : Fin cfg1.N) (i : S50000x128.Idx) :
    i ∈ ((cfg1.win 10).blk t).view.set ↔ ∀ a : Fin 2, win1_10.index t a * S2000x128.size a ≤ (i a).val
      ∧ (i a).val < win1_10.index t a * S2000x128.size a + S2000x128.size a := by
  show i ∈ ((View.whole main_v76_1).slice (win1_10.rect t)).set ↔ _
  rw [View.set_slice_whole, Rect.mem_set_unit]
  exact Iff.rfl

/-- Every index of the array is in the block of the point its row falls in, and that point writes back. -/
theorem cover10 (i : S50000x128.Idx) :
    ∃ t : Fin cfg1.N, (cfg1.win 10).flush t = true ∧ i ∈ ((cfg1.win 10).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by omega⟩, rfl⟩
  obtain ⟨-, -, e0, e1, -⟩ := idx_out t
  refine ⟨t, flush1_10 t, ?_⟩
  rw [mem_blk10]
  intro a
  match a with
  | ⟨0, _⟩ =>
    show win1_10.index t (0 : Fin 2) * 2000 ≤ (i 0).val ∧ (i 0).val < win1_10.index t (0 : Fin 2) * 2000 + 2000
    omega
  | ⟨1, _⟩ =>
    show win1_10.index t (1 : Fin 2) * 128 ≤ (i 1).val ∧ (i 1).val < win1_10.index t (1 : Fin 2) * 128 + 128
    omega

/-- The second result array ends holding the first projection of the fused rows. -/
theorem final10 : (dat1 V c).arrAt 10 cfg1.N = projOf V c (Wv V c) (bv V c) :=
  (dat1 V c).arrAt_eq_of_cover 10 (projOf V c (Wv V c) (bv V c)) (fun t _ => flushed10_eq V c t) (cover10)

/-! ## Window 11: the second projection -/

/-- An element of result block t of window 11 sits at row 2000·t + r, lane j of the array. -/
theorem emb11 (t : Fin cfg1.N) (r : Fin 2000) (j : Fin 128) :
    ((cfg1.win 11).blk t).view.emb (ix2 r j) = ix2 (⟨2000 * t.val + r.val, row_lt t r⟩ : Fin 50000) j := by
  obtain ⟨-, -, -, -, e0, e1⟩ := idx_out t
  refine funext fun a => Fin.ext ?_
  match a with
  | ⟨0, _⟩ => show win1_11.index t (0 : Fin 2) * 2000 + 1 * r.val = 2000 * t.val + r.val; omega
  | ⟨1, _⟩ => show win1_11.index t (1 : Fin 2) * 128 + 1 * j.val = j.val; omega

/-- What point t writes back into window 11 is block t of the second projection array. -/
theorem flushed11_eq (t : Fin cfg1.N) :
    (dat1 V c).flushed 11 t = ((cfg1.win 11).blk t).view.read (Elt Ideal) (projOf V c (Wt V c) (bt V c)) := by
  show (cfg1.win 11).cut (grid1.coords t) ((dat1 V c).after 11 t) = _
  rw [after1_11]
  funext y
  obtain ⟨r, j, rfl⟩ : ∃ (r : Fin 2000) (j : Fin 128), y = ix2 r j := ⟨y 0, y 1, eq_ix2 y⟩
  show out1_11 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 r j)
    = (projOf V c (Wt V c) (bt V c)) (((cfg1.win 11).blk t).view.emb (ix2 r j))
  rw [emb11, BodyB.out11_apply, rows0, rows1, rows2, whole3, whole4, whole7, whole8]
  rfl

/-- An index of the array is in point t's block of window 11 iff each coordinate is in the block's range on its axis. -/
theorem mem_blk11 (t : Fin cfg1.N) (i : S50000x128.Idx) :
    i ∈ ((cfg1.win 11).blk t).view.set ↔ ∀ a : Fin 2, win1_11.index t a * S2000x128.size a ≤ (i a).val
      ∧ (i a).val < win1_11.index t a * S2000x128.size a + S2000x128.size a := by
  show i ∈ ((View.whole main_v76_2).slice (win1_11.rect t)).set ↔ _
  rw [View.set_slice_whole, Rect.mem_set_unit]
  exact Iff.rfl

/-- Every index of the array is in the block of the point its row falls in, and that point writes back. -/
theorem cover11 (i : S50000x128.Idx) :
    ∃ t : Fin cfg1.N, (cfg1.win 11).flush t = true ∧ i ∈ ((cfg1.win 11).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by omega⟩, rfl⟩
  obtain ⟨-, -, -, -, e0, e1⟩ := idx_out t
  refine ⟨t, flush1_11 t, ?_⟩
  rw [mem_blk11]
  intro a
  match a with
  | ⟨0, _⟩ =>
    show win1_11.index t (0 : Fin 2) * 2000 ≤ (i 0).val ∧ (i 0).val < win1_11.index t (0 : Fin 2) * 2000 + 2000
    omega
  | ⟨1, _⟩ =>
    show win1_11.index t (1 : Fin 2) * 128 ≤ (i 1).val ∧ (i 1).val < win1_11.index t (1 : Fin 2) * 128 + 128
    omega

/-- The third result array ends holding the second projection of the fused rows. -/
theorem final11 : (dat1 V c).arrAt 11 cfg1.N = projOf V c (Wt V c) (bt V c) :=
  (dat1 V c).arrAt_eq_of_cover 11 (projOf V c (Wt V c) (bt V c)) (fun t _ => flushed11_eq V c t) (cover11)

end Cert.KernelIdeal.RegionB

end
-- ==== Proof.RefRows.lean ====
/-
  The reference program read stage by stage as the row mathematics: the embedding, the tempered and noised
  scores, their row maximum, the shifted exponentials and their sum (the soft assignment), the latent
  features (a sum over all nodes, reached through the transposed assignment), the message rows and their
  floored Euclidean lengths, the fused rows, and the two clipped affine projections.

  The graph propagation (three rounds of reading neighbours, scaling and adding up, then a division by
  four) is never opened: every statement takes its array as it is.
-/
import proofs.«138085_j29712583754279_1_alg».proof.Proof.RefReadPatched
import proofs.«138085_j29712583754279_1_alg».proof.Proof.RowMath
import Idealize.ShloMosaic.Lib.ValueIdx
import Idealize.ShloMosaic.PureOps.Ideal.Laws
import Idealize.ShloMosaic.PureOps.Reduce

noncomputable section

open scoped BigOperators

namespace Cert.ReferenceIdeal.RefRows

open Cert.ReferenceIdeal Cert.ReferenceIdeal.Gen Idealize.ShloMosaic Idealize.ShloMosaic.TcCoe Idealize.SL.Sem Idealize.ShloMosaic.StableHlo
open Idealize.ShloMosaic.ValueIdx Cert.RowMath

/-- A float array of shape `s` over the extended reals. -/
abbrev Arr (s : Shape) := (⟨s, .f32⟩ : BufTy).Contents (Elt Ideal)

variable (x0 : Arr S50000x384) (x1 : (⟨S2x600000, .i32⟩ : BufTy).Contents (Elt Ideal)) (x2 : Arr S50000x256)
  (x3 : Arr S384x128) (x4 : Arr S128) (x5 : Arr S128x256)

/-! ## The embedding -/

/-- Entry (p, q) of the embedding: feature row p times column q of the weights, plus bias q. -/
theorem emb_at (p : Fin 50000) (q : Fin 128) :
    ReadP.val_main_v34 (F := Ideal) x0 x3 x4 (ix2 p q) = embRow x0 x3 x4 p q := by
  have e1 : ∀ k : Fin 384, ReadP.lidx_main_v31 (ix2 p q) k = ix2 p k := fun k => funext fun a => Fin.ext (by match a with | ⟨0, _⟩ => rfl | ⟨1, _⟩ => rfl)
  have e2 : ∀ k : Fin 384, ReadP.ridx_main_v31 (ix2 p q) k = ix2 k q := fun k => funext fun a => Fin.ext (by match a with | ⟨0, _⟩ => rfl | ⟨1, _⟩ => rfl)
  have e3 : ReadP.idx_main_v32 (ReadP.idx_main_v33 (ix2 p q)) = ix1 q := funext fun a => Fin.ext (by match a with | ⟨0, _⟩ => rfl)
  rw [ReadP.val_main_v34_apply, ReadP.val_main_v31_apply, ReadP.val_main_v33_apply, ReadP.val_main_v32_apply]
  simp only [e1, e2, e3, Ideal.addf_def, embRow, rowAffine, rowTimes, mat, vec]

/-- The embedding array is the array of embedding rows. -/
theorem ref_emb : ReadP.val_main_v34 (F := Ideal) x0 x3 x4 = embArr x0 x3 x4 := by
  funext i
  obtain ⟨p, q, rfl⟩ : ∃ (p : Fin 50000) (q : Fin 128), i = ix2 p q := ⟨i 0, i 1, eq_ix2 i⟩
  exact emb_at x0 x3 x4 p q

/-! ## The soft assignment -/

/-- The noise at (p, h): minus the logarithm of (minus the logarithm of the shifted sample, shifted). -/
theorem gumbel_at (p : Fin 50000) (h : Fin 256) :
    ReadP.val_main_v87 (F := Ideal) x2 (ix2 p h) = gumbel (mat x2 p h) := by
  rw [ReadP.val_main_v87_apply, ReadP.val_main_v86_apply, ReadP.val_main_v85_apply, ReadP.val_main_v83_apply,
    ReadP.val_main_v82_apply, ReadP.val_main_v81_apply, ReadP.val_main_v84_apply, ReadP.val_main_v80_apply,
    ReadP.val_main_cst_19_apply, ReadP.val_main_cst_20_apply]
  simp only [Ideal.hostNegf_def, Ideal.negf_def, Ideal.hostUnary_log_def, Ideal.addf_def, Ideal.ofBits_def,
    gumbel, eps, mat]

/-- The score at (p, h): (embedding row p times column h of the hyperedge weights, plus the noise) over one half. -/
theorem score_at (p : Fin 50000) (h : Fin 256) :
    ReadP.val_main_v90 (F := Ideal) x0 x2 x3 x4 x5 (ix2 p h)
      = scoreRow (embRow x0 x3 x4 p) (mat x5) (mat x2 p) h := by
  have e1 : ∀ k : Fin 128, ReadP.lidx_main_v79 (ix2 p h) k = ix2 p k := fun k => funext fun a => Fin.ext (by match a with | ⟨0, _⟩ => rfl | ⟨1, _⟩ => rfl)
  have e2 : ∀ k : Fin 128, ReadP.ridx_main_v79 (ix2 p h) k = ix2 k h := fun k => funext fun a => Fin.ext (by match a with | ⟨0, _⟩ => rfl | ⟨1, _⟩ => rfl)
  rw [ReadP.val_main_v90_apply, ReadP.val_main_v88_apply, ReadP.val_main_v79_apply, ReadP.val_main_v89_apply,
    ReadP.val_main_cst_21_apply, gumbel_at]
  simp only [e1, e2, emb_at, Ideal.hostDivf_def, Ideal.addf_def, Ideal.ofBits_def, scoreRow, rowTimes, half, mat]

/-- Row p's maximum: the fold of max from minus infinity over the 256 scores, maxed once more against minus infinity. -/
theorem top_at (p : Fin 50000) :
    ReadP.val_main_v93 (F := Ideal) x0 x2 x3 x4 x5 (ix1 p)
      = rowTop (scoreRow (embRow x0 x3 x4 p) (mat x5) (mat x2 p)) := by
  have hR : S50000x256.Reduces [1] S50000 := by decide
  have hz : (ReadP.val_main_v90 (F := Ideal) x0 x2 x3 x4 x5 ∘ hR.lift (ix1 p))
      = scoreRow (embRow x0 x3 x4 p) (mat x5) (mat x2 p) := by
    funext k
    have ek : hR.lift (ix1 p) k = ix2 p k := funext fun a => Fin.ext (by match a with | ⟨0, _⟩ => rfl | ⟨1, _⟩ => rfl)
    show ReadP.val_main_v90 (F := Ideal) x0 x2 x3 x4 x5 (hR.lift (ix1 p) k) = _
    rw [ek]
    exact score_at x0 x2 x3 x4 x5 p k
  have h91 : ReadP.val_main_v91 (F := Ideal) x0 x2 x3 x4 x5 (ix1 p)
      = (Finset.univ : Finset (Fin 256)).fold max negInf (scoreRow (embRow x0 x3 x4 p) (mat x5) (mat x2 p)) := by
    unfold ReadP.val_main_v91
    rw [Host.reduce_eq_fold_single (FloatOps.maximumf (F := Ideal) (φ := .f32)) _ _ reducesTo_S50000x256_S50000_d1 hR h_S_
      (ix1 p), hz, ReadP.val_main_cst_22_apply]
    rfl
  rw [ReadP.val_main_v93_apply, ReadP.val_main_v92_apply, ReadP.val_main_cst_23_apply, h91]
  rfl

/-- The shifted exponential at (p, h). -/
theorem exp_at (p : Fin 50000) (h : Fin 256) :
    ReadP.val_main_v97 (F := Ideal) x0 x2 x3 x4 x5 (ix2 p h)
      = expShift (scoreRow (embRow x0 x3 x4 p) (mat x5) (mat x2 p)) h := by
  have e1 : ReadP.idx_main_v94 (ReadP.idx_main_v95 (ix2 p h)) = ix1 p := funext fun a => Fin.ext (by match a with | ⟨0, _⟩ => rfl)
  rw [ReadP.val_main_v97_apply, ReadP.val_main_v96_apply, ReadP.val_main_v95_apply, ReadP.val_main_v94_apply, e1,
    top_at, score_at]
  simp only [Ideal.hostUnary_exp_def, Ideal.subf_def, expShift]

/-- The soft assignment at (p, h): the shifted exponential over the sum of row p's shifted exponentials
    (the sum's starting value is the zero word, which is zero). -/
theorem soft_at (p : Fin 50000) (h : Fin 256) :
    ReadP.val_main_v101 (F := Ideal) x0 x2 x3 x4 x5 (ix2 p h) = asgRow x0 x2 x3 x4 x5 p h := by
  have e1 : ReadP.idx_main_v99 (ReadP.idx_main_v100 (ix2 p h)) = ix1 p := funext fun a => Fin.ext (by match a with | ⟨0, _⟩ => rfl)
  have e2 : ∀ k : Fin 256, ReadP.idx_main_v98 (ix1 p) k = ix2 p k := fun k => funext fun a => Fin.ext (by match a with | ⟨0, _⟩ => rfl | ⟨1, _⟩ => rfl)
  rw [ReadP.val_main_v101_apply, ReadP.val_main_v100_apply, ReadP.val_main_v99_apply, e1, ReadP.val_main_v98_apply,
    ReadP.val_main_cst_24_apply, Ideal.ofBits_def, Ideal.ofBits_zero_f32, zero_add]
  simp only [e2, exp_at, Ideal.hostDivf_def, asgRow, assignRow, softRow]

/-! ## The latent features and the messages -/

/-- Latent entry (h, j): the sum over ALL nodes of assignment (n, h) times embedding (n, j); the program
    reaches the assignment through its transpose. -/
theorem lat_at (h : Fin 256) (j : Fin 128) :
    ReadP.val_main_v103 (F := Ideal) x0 x2 x3 x4 x5 (ix2 h j) = latAll x0 x2 x3 x4 x5 h j := by
  have e1 : ∀ k : Fin 50000, ReadP.idx_main_v102 (ReadP.lidx_main_v103 (ix2 h j) k) = ix2 k h := fun k => funext fun a => Fin.ext (by match a with | ⟨0, _⟩ => rfl | ⟨1, _⟩ => rfl)
  have e2 : ∀ k : Fin 50000, ReadP.ridx_main_v103 (ix2 h j) k = ix2 k j := fun k => funext fun a => Fin.ext (by match a with | ⟨0, _⟩ => rfl | ⟨1, _⟩ => rfl)
  rw [ReadP.val_main_v103_apply]
  simp only [ReadP.val_main_v102_apply, e1, e2, soft_at, emb_at, latAll, latent]

/-- Message entry (p, j): assignment row p times column j of the latent features. -/
theorem msg_at (p : Fin 50000) (j : Fin 128) :
    ReadP.val_main_v104 (F := Ideal) x0 x2 x3 x4 x5 (ix2 p j)
      = rowTimes (asgRow x0 x2 x3 x4 x5 p) (latAll x0 x2 x3 x4 x5) j := by
  have e1 : ∀ k : Fin 256, ReadP.lidx_main_v104 (ix2 p j) k = ix2 p k := fun k => funext fun a => Fin.ext (by match a with | ⟨0, _⟩ => rfl | ⟨1, _⟩ => rfl)
  have e2 : ∀ k : Fin 256, ReadP.ridx_main_v104 (ix2 p j) k = ix2 k j := fun k => funext fun a => Fin.ext (by match a with | ⟨0, _⟩ => rfl | ⟨1, _⟩ => rfl)
  rw [ReadP.val_main_v104_apply]
  simp only [e1, e2, soft_at, lat_at, rowTimes]

/-- Message row p's floored Euclidean length, as the fused stage reads it at (p, j). -/
theorem len_at (p : Fin 50000) (j : Fin 128) :
    ReadP.val_main_v107 (F := Ideal) x0 x2 x3 x4 x5 (ReadP.idx_main_v108 (ix2 p j))
      = rowLen (rowTimes (asgRow x0 x2 x3 x4 x5 p) (latAll x0 x2 x3 x4 x5)) := by
  have e1 : ReadP.idx_main_call2_v2 (ReadP.idx_main_v108 (ix2 p j)) = ix1 p := funext fun a => Fin.ext (by match a with | ⟨0, _⟩ => rfl)
  have e2 : ∀ k : Fin 128, ReadP.idx_main_call2_v1 (ix1 p) k = ix2 p k := fun k => funext fun a => Fin.ext (by match a with | ⟨0, _⟩ => rfl | ⟨1, _⟩ => rfl)
  rw [ReadP.val_main_v107_apply, ReadP.val_main_v105_apply, ReadP.val_main_call2_v2_apply, e1,
    ReadP.val_main_call2_v1_apply, ReadP.val_main_call2_cst_apply, Ideal.ofBits_def, Ideal.ofBits_zero_f32, zero_add,
    ReadP.val_main_v106_apply, ReadP.val_main_cst_25_apply]
  simp only [e2, ReadP.val_main_call2_v0_apply, msg_at, Ideal.maximumf_def, Ideal.hostUnary_sqrt_def, Ideal.mulf_def,
    Ideal.ofBits_def, rowLen, floorLen]

/-! ## The three results -/

/-- Fused entry (p, j): propagated entry plus one tenth of (message entry over the row's floored length). -/
theorem fused_at (p : Fin 50000) (j : Fin 128) :
    ReadP.val_main_v112 (F := Ideal) x0 x1 x2 x3 x4 x5 (ix2 p j)
      = fusedRow x0 x2 x3 x4 x5 (ReadP.val_main_v78 (F := Ideal) x0 x1 x3 x4) p j := by
  rw [ReadP.val_main_v112_apply, ReadP.val_main_v111_apply, ReadP.val_main_v110_apply, ReadP.val_main_cst_26_apply,
    ReadP.val_main_v109_apply, ReadP.val_main_v108_apply, len_at, msg_at]
  simp only [Ideal.addf_def, Ideal.mulf_def, Ideal.hostDivf_def, Ideal.ofBits_def, fusedRow, fuseRow, tenth, mat]

/-- The first result is the array of fused rows over the propagated array. -/
theorem ref_fused :
    ReadP.val_main_v112 (F := Ideal) x0 x1 x2 x3 x4 x5
      = fusedArr x0 x2 x3 x4 x5 (ReadP.val_main_v78 (F := Ideal) x0 x1 x3 x4) := by
  funext i
  obtain ⟨p, j, rfl⟩ : ∃ (p : Fin 50000) (j : Fin 128), i = ix2 p j := ⟨i 0, i 1, eq_ix2 i⟩
  exact fused_at x0 x1 x2 x3 x4 x5 p j

/-- Entry (p, j) of the first projection: fused row p times column j of the weights, plus bias j, clipped below at zero. -/
theorem vis_at (x6 : Arr S128x128) (x7 : Arr S128) (p : Fin 50000) (j : Fin 128) :
    ReadP.val_main_v117 (F := Ideal) x0 x1 x2 x3 x4 x5 x6 x7 (ix2 p j)
      = clipAffine (fusedRow x0 x2 x3 x4 x5 (ReadP.val_main_v78 (F := Ideal) x0 x1 x3 x4) p) (mat x6) (vec x7) j := by
  have e1 : ∀ k : Fin 128, ReadP.lidx_main_v113 (ix2 p j) k = ix2 p k := fun k => funext fun a => Fin.ext (by match a with | ⟨0, _⟩ => rfl | ⟨1, _⟩ => rfl)
  have e2 : ∀ k : Fin 128, ReadP.ridx_main_v113 (ix2 p j) k = ix2 k j := fun k => funext fun a => Fin.ext (by match a with | ⟨0, _⟩ => rfl | ⟨1, _⟩ => rfl)
  have e3 : ReadP.idx_main_v114 (ReadP.idx_main_v115 (ix2 p j)) = ix1 j := funext fun a => Fin.ext (by match a with | ⟨0, _⟩ => rfl)
  rw [ReadP.val_main_v117_apply, ReadP.val_main_v116_apply, ReadP.val_main_v113_apply, ReadP.val_main_v115_apply,
    ReadP.val_main_v114_apply, e3, ReadP.val_main_call3_v0_apply, ReadP.val_main_call3_cst_apply]
  simp only [e1, e2, fused_at, Ideal.maximumf_def, Ideal.addf_def, Ideal.ofBits_def, clipAffine, rowAffine,
    rowTimes, zeroW, mat, vec]

/-- The second result: the fused rows through the first projection, clipped below at zero. -/
theorem ref_vis (x6 : Arr S128x128) (x7 : Arr S128) :
    ReadP.val_main_v117 (F := Ideal) x0 x1 x2 x3 x4 x5 x6 x7
      = projArr x0 x2 x3 x4 x5 (ReadP.val_main_v78 (F := Ideal) x0 x1 x3 x4) x6 x7 := by
  funext i
  obtain ⟨p, j, rfl⟩ : ∃ (p : Fin 50000) (j : Fin 128), i = ix2 p j := ⟨i 0, i 1, eq_ix2 i⟩
  exact vis_at x0 x1 x2 x3 x4 x5 x6 x7 p j

/-- Entry (p, j) of the second projection: fused row p times column j of the weights, plus bias j, clipped below at zero. -/
theorem txt_at (x8 : Arr S128x128) (x9 : Arr S128) (p : Fin 50000) (j : Fin 128) :
    ReadP.val_main_v122 (F := Ideal) x0 x1 x2 x3 x4 x5 x8 x9 (ix2 p j)
      = clipAffine (fusedRow x0 x2 x3 x4 x5 (ReadP.val_main_v78 (F := Ideal) x0 x1 x3 x4) p) (mat x8) (vec x9) j := by
  have e1 : ∀ k : Fin 128, ReadP.lidx_main_v118 (ix2 p j) k = ix2 p k := fun k => funext fun a => Fin.ext (by match a with | ⟨0, _⟩ => rfl | ⟨1, _⟩ => rfl)
  have e2 : ∀ k : Fin 128, ReadP.ridx_main_v118 (ix2 p j) k = ix2 k j := fun k => funext fun a => Fin.ext (by match a with | ⟨0, _⟩ => rfl | ⟨1, _⟩ => rfl)
  have e3 : ReadP.idx_main_v119 (ReadP.idx_main_v120 (ix2 p j)) = ix1 j := funext fun a => Fin.ext (by match a with | ⟨0, _⟩ => rfl)
  rw [ReadP.val_main_v122_apply, ReadP.val_main_v121_apply, ReadP.val_main_v118_apply, ReadP.val_main_v120_apply,
    ReadP.val_main_v119_apply, e3, ReadP.val_main_call4_v0_apply, ReadP.val_main_call4_cst_apply]
  simp only [e1, e2, fused_at, Ideal.maximumf_def, Ideal.addf_def, Ideal.ofBits_def, clipAffine, rowAffine,
    rowTimes, zeroW, mat, vec]

/-- The third result: the fused rows through the second projection, clipped below at zero. -/
theorem ref_txt (x8 : Arr S128x128) (x9 : Arr S128) :
    ReadP.val_main_v122 (F := Ideal) x0 x1 x2 x3 x4 x5 x8 x9
      = projArr x0 x2 x3 x4 x5 (ReadP.val_main_v78 (F := Ideal) x0 x1 x3 x4) x8 x9 := by
  funext i
  obtain ⟨p, j, rfl⟩ : ∃ (p : Fin 50000) (j : Fin 128), i = ix2 p j := ⟨i 0, i 1, eq_ix2 i⟩
  exact txt_at x0 x1 x2 x3 x4 x5 x8 x9 p j

end Cert.ReferenceIdeal.RefRows

end
-- ==== Proof.KernelValue.lean ====
/-
  The three arrays the kernel program leaves, as functions of the arrays it is launched on.

  The second launch leaves in its three result arrays the fused rows, and their two clipped affine images, of
  the nine arrays it finds. Six of those are launch arguments nothing has written; two are what the first
  launch left, the embedding of every node and the latent features over all nodes; the last is the propagated
  embedding the operations between the two launches computed from the first launch's embedding, and that is
  the reference's own propagation stage, because the embedding it starts from is the reference's embedding
  stage. Substituting, the three results are the shared row functions of the launch arrays and of that
  propagated array: row n of the embedding array is node n's embedding row, and the latent array at (h, j) is
  the latent entry.
-/
import proofs.«138085_j29712583754279_1_alg».proof.Proof.KRun
import proofs.«138085_j29712583754279_1_alg».proof.Proof.RegionA
import proofs.«138085_j29712583754279_1_alg».proof.Proof.RegionB
import proofs.«138085_j29712583754279_1_alg».proof.Proof.RefRows
import proofs.«138085_j29712583754279_1_alg».proof.Proof.RowMath

set_option maxRecDepth 16384

noncomputable section

namespace Cert.KernelIdeal.KValue

open Cert.KernelIdeal Cert.KernelIdeal.Gen Cert.RowMath
open Idealize.ShloMosaic Idealize.ShloMosaic.TcCoe Idealize.SL.Sem

variable (m : (ℓ : Loc nD τ sig) → Buf (Elt Ideal) ℓ) (ρ : Dev nD → PrngReg)

/-- What the host operations between the two launches leave of the nine arrays the second launch reads: six launch
    arguments untouched, the first launch's two results untouched, and the propagated embedding, which is the
    reference's propagation stage of the launch arguments once the first result is the reference's embedding stage. -/
structure MidFacts : Prop where
  arg2 : ∀ c : Dev nD, W6 m ρ c (Proc.devRef .tc main_arg2) = m ((c : Thread nD τ).loc main_arg2)
  arg5 : ∀ c : Dev nD, W6 m ρ c (Proc.devRef .tc main_arg5) = m ((c : Thread nD τ).loc main_arg5)
  arg6 : ∀ c : Dev nD, W6 m ρ c (Proc.devRef .tc main_arg6) = m ((c : Thread nD τ).loc main_arg6)
  arg7 : ∀ c : Dev nD, W6 m ρ c (Proc.devRef .tc main_arg7) = m ((c : Thread nD τ).loc main_arg7)
  arg8 : ∀ c : Dev nD, W6 m ρ c (Proc.devRef .tc main_arg8) = m ((c : Thread nD τ).loc main_arg8)
  arg9 : ∀ c : Dev nD, W6 m ρ c (Proc.devRef .tc main_arg9) = m ((c : Thread nD τ).loc main_arg9)
  emb : ∀ c : Dev nD, W6 m ρ c (Proc.devRef .tc main_v0_0) = (dat0 (V0 m ρ) c).arrAt 5 cfg0.N
  lat : ∀ c : Dev nD, W6 m ρ c (Proc.devRef .tc main_v0_1) = (dat0 (V0 m ρ) c).arrAt 6 cfg0.N
  loc : ∀ c : Dev nD,
    (dat0 (V0 m ρ) c).arrAt 5 cfg0.N
        = Cert.ReferenceIdeal.ReadP.val_main_v34 (F := Ideal) (m ((c : Thread nD τ).loc main_arg0)) (m ((c : Thread nD τ).loc main_arg3))
            (m ((c : Thread nD τ).loc main_arg4)) →
      W6 m ρ c (Proc.devRef .tc main_v75)
        = Cert.ReferenceIdeal.ReadP.val_main_v78 (F := Ideal) (m ((c : Thread nD τ).loc main_arg0)) (m ((c : Thread nD τ).loc main_arg1))
            (m ((c : Thread nD τ).loc main_arg3)) (m ((c : Thread nD τ).loc main_arg4))

/-! ## The second launch's results, once the arrays it reads are known -/

section Subst

variable (V : (c : Dev nD) → (b : Ref sig .tc) → Buf (Elt Ideal) ((c : Thread nD τ).loc b)) (c : Dev nD)
  (X : (⟨2, ![50000, 384]⟩ : Shape).Idx → EReal) (U : (⟨2, ![50000, 256]⟩ : Shape).Idx → EReal)
  (Wf : (⟨2, ![384, 128]⟩ : Shape).Idx → EReal) (bf : (⟨1, ![128]⟩ : Shape).Idx → EReal)
  (Wh : (⟨2, ![128, 256]⟩ : Shape).Idx → EReal) (L : (⟨2, ![50000, 128]⟩ : Shape).Idx → EReal)

/-- If the second launch finds the embedding array, the samples, a propagated array L, the hyperedge weights and
    the latent array of the launch arrays, its first result is the array of fused rows: row n of the embedding
    array is node n's embedding row, and the latent array read at (h, j) is the latent entry. -/
theorem fusedOf_eq (hE : RegionB.Emb V c = embArr X Wf bf) (hU : RegionB.Un V c = U) (hL : RegionB.Loc V c = L)
    (hW : RegionB.Wh V c = Wh) (hLat : RegionB.Lat V c = latArr X U Wf bf Wh) :
    RegionB.fusedOf V c = fusedArr X U Wf bf Wh L := by
  unfold RegionB.fusedOf
  rw [hE, hU, hL, hW, hLat]
  rfl

/-- Likewise a projection result is the clipped affine image of the fused rows. -/
theorem projOf_eq (W : S128x128.Idx → EReal) (b : S128.Idx → EReal)
    (hE : RegionB.Emb V c = embArr X Wf bf) (hU : RegionB.Un V c = U) (hL : RegionB.Loc V c = L)
    (hW : RegionB.Wh V c = Wh) (hLat : RegionB.Lat V c = latArr X U Wf bf Wh) :
    RegionB.projOf V c W b = projArr X U Wf bf Wh L W b := by
  unfold RegionB.projOf
  rw [hE, hU, hL, hW, hLat]
  rfl

end Subst

/-! ## The three results of the program -/

variable (c : Dev nD)

/-- The first launch leaves the embedding of every node in its first result. -/
theorem embE (hb : RegionA.BodyFacts) :
    (dat0 (V0 m ρ) c).arrAt 5 cfg0.N
      = embArr (m ((c : Thread nD τ).loc main_arg0)) (m ((c : Thread nD τ).loc main_arg3)) (m ((c : Thread nD τ).loc main_arg4)) :=
  RegionA.final5 (V0 m ρ) c hb

/-- The first launch leaves the latent features over all nodes in its second result. -/
theorem latE (hb : RegionA.BodyFacts) :
    (dat0 (V0 m ρ) c).arrAt 6 cfg0.N
      = latArr (m ((c : Thread nD τ).loc main_arg0)) (m ((c : Thread nD τ).loc main_arg2))
        (m ((c : Thread nD τ).loc main_arg3)) (m ((c : Thread nD τ).loc main_arg4)) (m ((c : Thread nD τ).loc main_arg5)) :=
  RegionA.final6 (V0 m ρ) c hb

/-- The second launch finds the reference's propagated array: the operations between the launches computed it from
    the embedding array, which is the reference's embedding stage. -/
theorem locE (hm : MidFacts m ρ) (hb : RegionA.BodyFacts) :
    W6 m ρ c (Proc.devRef .tc main_v75)
      = (Cert.ReferenceIdeal.ReadP.val_main_v78 (F := Ideal) (m ((c : Thread nD τ).loc main_arg0)) (m ((c : Thread nD τ).loc main_arg1))
        (m ((c : Thread nD τ).loc main_arg3)) (m ((c : Thread nD τ).loc main_arg4))) :=
  hm.loc c ((embE m ρ c hb).trans (Cert.ReferenceIdeal.RefRows.ref_emb _ _ _).symm)

/-- The first result: the fused rows. -/
theorem out0 (hm : MidFacts m ρ) (hb : RegionA.BodyFacts) :
    W7 m ρ c (Proc.devRef .tc main_v76_0)
      = fusedArr (m ((c : Thread nD τ).loc main_arg0)) (m ((c : Thread nD τ).loc main_arg2))
        (m ((c : Thread nD τ).loc main_arg3)) (m ((c : Thread nD τ).loc main_arg4)) (m ((c : Thread nD τ).loc main_arg5))
        (Cert.ReferenceIdeal.ReadP.val_main_v78 (F := Ideal) (m ((c : Thread nD τ).loc main_arg0)) (m ((c : Thread nD τ).loc main_arg1))
        (m ((c : Thread nD τ).loc main_arg3)) (m ((c : Thread nD τ).loc main_arg4))) := by
  refine (W7_arr m ρ c 9).trans ?_
  refine (RegionB.final9 (V6 m ρ) c).trans ?_
  exact fusedOf_eq (V6 m ρ) c _ _ _ _ _ _ ((hm.emb c).trans (embE m ρ c hb)) (hm.arg2 c) (locE m ρ c hm hb) (hm.arg5 c)
    ((hm.lat c).trans (latE m ρ c hb))

/-- The second result: the first clipped projection of the fused rows. -/
theorem out1 (hm : MidFacts m ρ) (hb : RegionA.BodyFacts) :
    W7 m ρ c (Proc.devRef .tc main_v76_1)
      = projArr (m ((c : Thread nD τ).loc main_arg0)) (m ((c : Thread nD τ).loc main_arg2))
        (m ((c : Thread nD τ).loc main_arg3)) (m ((c : Thread nD τ).loc main_arg4)) (m ((c : Thread nD τ).loc main_arg5))
        (Cert.ReferenceIdeal.ReadP.val_main_v78 (F := Ideal) (m ((c : Thread nD τ).loc main_arg0)) (m ((c : Thread nD τ).loc main_arg1))
        (m ((c : Thread nD τ).loc main_arg3)) (m ((c : Thread nD τ).loc main_arg4)))
        (m ((c : Thread nD τ).loc main_arg6)) (m ((c : Thread nD τ).loc main_arg7)) := by
  refine (W7_arr m ρ c 10).trans ?_
  refine (RegionB.final10 (V6 m ρ) c).trans ?_
  rw [show RegionB.Wv (V6 m ρ) c = (m ((c : Thread nD τ).loc main_arg6)) from hm.arg6 c,
    show RegionB.bv (V6 m ρ) c = (m ((c : Thread nD τ).loc main_arg7)) from hm.arg7 c]
  exact projOf_eq (V6 m ρ) c _ _ _ _ _ _ _ _ ((hm.emb c).trans (embE m ρ c hb)) (hm.arg2 c) (locE m ρ c hm hb) (hm.arg5 c)
    ((hm.lat c).trans (latE m ρ c hb))

/-- The third result: the second clipped projection of the fused rows. -/
theorem out2 (hm : MidFacts m ρ) (hb : RegionA.BodyFacts) :
    W7 m ρ c (Proc.devRef .tc main_v76_2)
      = projArr (m ((c : Thread nD τ).loc main_arg0)) (m ((c : Thread nD τ).loc main_arg2))
        (m ((c : Thread nD τ).loc main_arg3)) (m ((c : Thread nD τ).loc main_arg4)) (m ((c : Thread nD τ).loc main_arg5))
        (Cert.ReferenceIdeal.ReadP.val_main_v78 (F := Ideal) (m ((c : Thread nD τ).loc main_arg0)) (m ((c : Thread nD τ).loc main_arg1))
        (m ((c : Thread nD τ).loc main_arg3)) (m ((c : Thread nD τ).loc main_arg4)))
        (m ((c : Thread nD τ).loc main_arg8)) (m ((c : Thread nD τ).loc main_arg9)) := by
  refine (W7_arr m ρ c 11).trans ?_
  refine (RegionB.final11 (V6 m ρ) c).trans ?_
  rw [show RegionB.Wt (V6 m ρ) c = (m ((c : Thread nD τ).loc main_arg8)) from hm.arg8 c,
    show RegionB.bt (V6 m ρ) c = (m ((c : Thread nD τ).loc main_arg9)) from hm.arg9 c]
  exact projOf_eq (V6 m ρ) c _ _ _ _ _ _ _ _ ((hm.emb c).trans (embE m ρ c hb)) (hm.arg2 c) (locE m ρ c hm hb) (hm.arg5 c)
    ((hm.lat c).trans (latE m ρ c hb))

end Cert.KernelIdeal.KValue

end
-- ==== Proof.lean ====
/-
  Both programs compute, for 50000 nodes, the fused rows — the graph-propagated embedding plus one tenth of the
  hypergraph message scaled to unit Euclidean length — and two affine images of them clipped below at zero. The
  kernel program does it in two launches over blocks of 2000 nodes, the first also summing the latent hyperedge
  features over all blocks, with the graph propagation between them; the reference does it on whole arrays. Over
  the extended reals both results are the same row functions of the argument arrays and of the propagated
  embedding, which both programs compute by the same operations from the same embedding.
-/
import proofs.«138085_j29712583754279_1_alg».proof.Defs
import proofs.«138085_j29712583754279_1_alg».proof.Proof.Gen.Kernel
import proofs.«138085_j29712583754279_1_alg».proof.Proof.Gen.Kernel.Skeleton
import proofs.«138085_j29712583754279_1_alg».proof.Proof.Gen.Kernel.Launch
import proofs.«138085_j29712583754279_1_alg».proof.Proof.Gen.Kernel.Points
import proofs.«138085_j29712583754279_1_alg».proof.Proof.Gen.Kernel.Frame
import proofs.«138085_j29712583754279_1_alg».proof.Proof.Gen.KernelIdeal
import proofs.«138085_j29712583754279_1_alg».proof.Proof.Gen.KernelIdeal.Skeleton
import proofs.«138085_j29712583754279_1_alg».proof.Proof.Gen.KernelIdeal.Launch
import proofs.«138085_j29712583754279_1_alg».proof.Proof.Gen.KernelIdeal.Points
import proofs.«138085_j29712583754279_1_alg».proof.Proof.Gen.KernelIdeal.Frame
import proofs.«138085_j29712583754279_1_alg».proof.Proof.Gen.ReferenceIdeal
import proofs.«138085_j29712583754279_1_alg».proof.Proof.Gen.Pre_finite_inputs
import proofs.«138085_j29712583754279_1_alg».proof.Proof.KRun
import proofs.«138085_j29712583754279_1_alg».proof.Proof.BodyA
import proofs.«138085_j29712583754279_1_alg».proof.Proof.Middle
import proofs.«138085_j29712583754279_1_alg».proof.Proof.KernelValue
import proofs.«138085_j29712583754279_1_alg».proof.Proof.RefRows
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments unchanged. -/
theorem frame_K : Cert.frame_Kernel := fun m ρ _ => Cert.Kernel.Gen.frame m ρ

/-- So does the kernel program read over the extended reals. -/
theorem frame_KI : Cert.frame_KernelIdeal := fun m ρ _ => Cert.KernelIdeal.Gen.frame m ρ

/-- So does the reference: its run with the three results dropped. -/
theorem frame_R : Cert.frame_ReferenceIdeal := fun m ρ _ =>
  (θ_run Cert.ReferenceIdeal.defs _ _).mono (fun _ h c => (h c).2.2.2) (Cert.ReferenceIdeal.ValueP.run (F := Ideal) m ρ)

/-- The first kernel's arithmetic, read at an index. -/
theorem bodyFacts : Cert.KernelIdeal.RegionA.BodyFacts :=
  ⟨Cert.KernelIdeal.BodyA.pay3_apply, Cert.KernelIdeal.BodyA.acc_apply, Cert.KernelIdeal.BodyA.pay2_apply⟩

/-- What the operations between the two launches leave of the arrays the second launch reads. -/
theorem midFacts (m : (ℓ : Loc Cert.KernelIdeal.nD Cert.KernelIdeal.τ Cert.KernelIdeal.sig) → Buf (Elt Ideal) ℓ) (ρ : Dev Cert.KernelIdeal.nD → PrngReg) :
    Cert.KernelIdeal.KValue.MidFacts m ρ :=
  ⟨Cert.KernelIdeal.Middle.mid_arg2 m ρ, Cert.KernelIdeal.Middle.mid_arg5 m ρ, Cert.KernelIdeal.Middle.mid_arg6 m ρ, Cert.KernelIdeal.Middle.mid_arg7 m ρ,
    Cert.KernelIdeal.Middle.mid_arg8 m ρ, Cert.KernelIdeal.Middle.mid_arg9 m ρ, Cert.KernelIdeal.Middle.mid_emb m ρ, Cert.KernelIdeal.Middle.mid_lat m ρ,
    fun c hE => Cert.KernelIdeal.Middle.mid_loc m ρ c hE⟩

/-- Over the extended reals, from memories agreeing on the arguments, both programs end with the fused rows and
    their two clipped affine images of the argument arrays, and with the arguments unchanged. -/
theorem algebraic : Cert.algebraic_KernelIdeal_ReferenceIdeal := by
  intro m ρ m' ρ' _ hagree
  refine ⟨fun c => Cert.RowMath.fusedArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.ReferenceIdeal.ReadP.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))),
    fun c => Cert.RowMath.projArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.ReferenceIdeal.ReadP.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.RowMath.projArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.ReferenceIdeal.ReadP.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.RunValue.run_all m ρ)
    exact ⟨(h c Cert.KernelIdeal.main_v76_0 (by decide)).trans (Cert.KernelIdeal.KValue.out0 m ρ c (midFacts m ρ) bodyFacts),
      (h c Cert.KernelIdeal.main_v76_1 (by decide)).trans (Cert.KernelIdeal.KValue.out1 m ρ c (midFacts m ρ) bodyFacts),
      (h c Cert.KernelIdeal.main_v76_2 (by decide)).trans (Cert.KernelIdeal.KValue.out2 m ρ c (midFacts m ρ) bodyFacts),
      (h c Cert.KernelIdeal.main_arg0 (by decide)).trans (Cert.KernelIdeal.Gen.W7_main_arg0 m ρ c),
      (h c Cert.KernelIdeal.main_arg1 (by decide)).trans (Cert.KernelIdeal.Gen.W7_main_arg1 m ρ c),
      (h c Cert.KernelIdeal.main_arg2 (by decide)).trans (Cert.KernelIdeal.Gen.W7_main_arg2 m ρ c),
      (h c Cert.KernelIdeal.main_arg3 (by decide)).trans (Cert.KernelIdeal.Gen.W7_main_arg3 m ρ c),
      (h c Cert.KernelIdeal.main_arg4 (by decide)).trans (Cert.KernelIdeal.Gen.W7_main_arg4 m ρ c),
      (h c Cert.KernelIdeal.main_arg5 (by decide)).trans (Cert.KernelIdeal.Gen.W7_main_arg5 m ρ c),
      (h c Cert.KernelIdeal.main_arg6 (by decide)).trans (Cert.KernelIdeal.Gen.W7_main_arg6 m ρ c),
      (h c Cert.KernelIdeal.main_arg7 (by decide)).trans (Cert.KernelIdeal.Gen.W7_main_arg7 m ρ c),
      (h c Cert.KernelIdeal.main_arg8 (by decide)).trans (Cert.KernelIdeal.Gen.W7_main_arg8 m ρ c),
      (h c Cert.KernelIdeal.main_arg9 (by decide)).trans (Cert.KernelIdeal.Gen.W7_main_arg9 m ρ c)⟩
  · refine (θ_run Cert.ReferenceIdeal.defs _ _).mono (fun r h c => ?_) (Cert.ReferenceIdeal.ValueP.run (F := Ideal) m' ρ')
    obtain ⟨a0, a1, a2, a3, a4, a5, a6, a7, a8, a9⟩ := hagree c
    refine ⟨(h c).1.trans ?_, (h c).2.1.trans ?_, (h c).2.2.1.trans ?_, (h c).2.2.2⟩
    · rw [Cert.ReferenceIdeal.ReadP.val_main_v112_eq, a0, a1, a2, a3, a4, a5]
      exact Cert.ReferenceIdeal.RefRows.ref_fused _ _ _ _ _ _
    · rw [Cert.ReferenceIdeal.ReadP.val_main_v117_eq, a0, a1, a2, a3, a4, a5, a6, a7]
      exact Cert.ReferenceIdeal.RefRows.ref_vis _ _ _ _ _ _ _ _
    · rw [Cert.ReferenceIdeal.ReadP.val_main_v122_eq, a0, a1, a2, a3, a4, a5, a8, a9]
      exact Cert.ReferenceIdeal.RefRows.ref_txt _ _ _ _ _ _ _ _

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
